-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg1 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x00000000#32
  let main_v22 : FVec F S8192 .f32 := broadcastInDim S8192 ![] bcast_S_S8192 main_cst_6
  let main_v23 : IVec S8192 1 := cmpf .ogt main_v21 main_v22
  let main_c_7 : IVec S_ 1 := constantI S_ 1 1#1
  let main_v24 : IVec S_ 1 := (fun x v => Host.reduce IntOp.andi x v reducesTo_S8192_S_d0 h_S_) main_v23 main_c_7
  let main_v25 : IVec S_ 1 := andi main_v13 main_v24
  main_v25

def fn {F : FTy → Type} [FloatOps F] (main_arg0 : FVec F S8192x512 .f32) (main_arg1 : FVec F S8192x8192 .f32) (main_arg2 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg1 main_v13 main_v14 main_v15 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S8192x1 : Shape := ⟨2, ![8192, 1]⟩
abbrev S1024x2048 : Shape := ⟨2, ![1024, 2048]⟩
abbrev S1024x512 : Shape := ⟨2, ![1024, 512]⟩
abbrev S1024x1 : Shape := ⟨2, ![1024, 1]⟩
abbrev S1024 : Shape := ⟨1, ![1024]⟩
abbrev S1024x1024 : Shape := ⟨2, ![1024, 1024]⟩

abbrev nBuf : Space → Nat
  | .hbm => 7
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S8192x1, .f32⟩
  | .hbm, ⟨4, _⟩ => ⟨S8192x512, .bf16⟩
  | .hbm, ⟨5, _⟩ => ⟨S512x512, .bf16⟩
  | .hbm, ⟨6, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x512, .bf16⟩
  | .local _ .vmem, ⟨7, _⟩ => ⟨S1024x512, .bf16⟩
  | .local _ .vmem, ⟨8, _⟩ => ⟨S1024x1, .f32⟩
  | .local _ .vmem, ⟨9, _⟩ => ⟨S1024x1024, .f32⟩
  | .local _ .vmem, ⟨10, _⟩ => ⟨S1024x1024, .f32⟩
  | .local _ .vmem, ⟨11, _⟩ => ⟨S8192x512, .bf16⟩
  | .local _ .vmem, ⟨12, _⟩ => ⟨S1024x1, .f32⟩
  | .local _ .vmem, ⟨13, _⟩ => ⟨S1024x1, .f32⟩
  | .local _ .vmem, ⟨14, _⟩ => ⟨S512x512, .bf16⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def k1_mult2 (i : grid1.Coords) : BitVec 32 :=
  let arg0 : BitVec 32 := BitVec.ofNat 32 (i 0).val
  let c1024_i32_8 : BitVec 32 := 1024#32
  let v19 : BitVec 32 := Scalar.muli arg0 c1024_i32_8
  v19
def k1_off2 (i : grid1.Coords) : Fin 2 → Nat :=
  let arg0 : BitVec 32 := BitVec.ofNat 32 (i 0).val
  let c1024_i32_8 : BitVec 32 := 1024#32
  let v19 : BitVec 32 := Scalar.muli arg0 c1024_i32_8
  let v20 : BitVec 32 := v19
  let v21 : Index := Scalar.indexCast v20
  let c0_9 : Index := 0#32
  ![v21.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x512.size a ≤ S8192x512.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .i1⟩
  | .hbm, ⟨25, _⟩ => ⟨S_, .f32⟩
  | .hbm, ⟨26, _⟩ => ⟨S8192x512, .f32⟩
  | .hbm, ⟨27, _⟩ => ⟨S8192x512, .i1⟩
  | .hbm, ⟨28, _⟩ => ⟨S_, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_cst_1 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v4 : Ref sig .tc := ⟨.hbm, 31, rfl⟩
abbrev main_call0_v5 : Ref sig .tc := ⟨.hbm, 32, rfl⟩
abbrev main_call0_cst_2 : Ref sig .tc := ⟨.hbm, 33, rfl⟩
abbrev main_call0_v6 : Ref sig .tc := ⟨.hbm, 34, rfl⟩
abbrev main_call0_v7 : Ref sig .tc := ⟨.hbm, 35, rfl⟩
abbrev main_v17 : Ref sig .tc := ⟨.hbm, 36, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.K.Region0.Runs.lean ====
import proofs.«114790_j36223754174749_2_alg».proof.Proof.Gen.Kernel.Launch
import proofs.«114790_j36223754174749_2_alg».proof.Proof.Gen.Kernel.Skeleton
import proofs.«114790_j36223754174749_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is fetched at every point, uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: it is fetched
    where the row of blocks changes, and between two fetches its block index does not move, so the block the body
    left in place at the point before is this point's block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional's condition (the column of blocks is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the column of blocks is the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A output window 2 is idle: the case stores nothing into it. -/
theorem idleAt0_2_A : ∀ t : Fin cfg0.N, cond0_0 (grid0.coords t) → ¬cond0_1 (grid0.coords t) → cfg0.idle 2 (grid0.coords t) = true := by decide +kernel
/-- At the points of case A output window 2's block is not written back. -/
theorem noFlush0_2_A : ∀ t : Fin cfg0.N, cond0_0 (grid0.coords t) → ¬cond0_1 (grid0.coords t) → (cfg0.win 2).flush t = false := by decide +kernel
/-- At the points of case A output window 3 is idle: the case stores nothing into it. -/
theorem idleAt0_3_A : ∀ t : Fin cfg0.N, cond0_0 (grid0.coords t) → ¬cond0_1 (grid0.coords t) → cfg0.idle 3 (grid0.coords t) = true := by decide +kernel
/-- At the points of case A output window 3's block is not written back. -/
theorem noFlush0_3_A : ∀ t : Fin cfg0.N, cond0_0 (grid0.coords t) → ¬cond0_1 (grid0.coords t) → (cfg0.win 3).flush t = false := by decide +kernel
/-- At the points of case B output window 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B output window 2's block is not written back. -/
theorem noFlush0_2_B : ∀ t : Fin cfg0.N, ¬cond0_0 (grid0.coords t) → ¬cond0_1 (grid0.coords t) → (cfg0.win 2).flush t = false := by decide +kernel
/-- At the points of case B output window 3 is idle: the case stores nothing into it. -/
theorem idleAt0_3_B : ∀ t : Fin cfg0.N, ¬cond0_0 (grid0.coords t) → ¬cond0_1 (grid0.coords t) → cfg0.idle 3 (grid0.coords t) = true := by decide +kernel
/-- At the points of case B output window 3's block is not written back. -/
theorem noFlush0_3_B : ∀ t : Fin cfg0.N, ¬cond0_0 (grid0.coords t) → ¬cond0_1 (grid0.coords t) → (cfg0.win 3).flush t = false := by decide +kernel
/-- At the points of case C output window 2 is live: the case stores into it. -/
theorem liveAt0_2_C : ∀ t : Fin cfg0.N, ¬cond0_0 (grid0.coords t) → cond0_1 (grid0.coords t) → cfg0.idle 2 (grid0.coords t) = false := by decide +kernel
/-- At the points of case C output window 3 is live: the case stores into it. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of each output window, through which its contents are stated (the choice does not matter). -/
abbrev VO0_2 : View sig .tc .vmem S1024x1 .f32 := (Memref.whole cc0_stg2_0 : Memref sig .tc .vmem S1024x1 .f32).view
abbrev VO0_3 : View sig .tc .vmem S1024x512 .bf16 := (Memref.whole cc0_stg3_0 : Memref sig .tc .vmem S1024x512 .bf16).view
/-- Each window's current staging memref at point `t`, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
/-- The scratch operand: the row sums accumulated so far, carried between points. -/
abbrev scM0_0 : Memref sig .tc .vmem S1024x1 .f32 := Memref.whole cc0_scratch0
abbrev VS0_0 : View sig .tc .vmem S1024x1 .f32 := scM0_0.view

/-- The core's scoped buffers that belong to the other region (its staging buffers and its scratch), each whole
    at some contents: this region's body never touches them. -/
abbrev foreign0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's class invariant, conjunct by conjunct: the carried scratch owned at some contents, the other
    region's scoped buffers, the generator register at some state. -/
theorem PhiA0_eq (c : Dev nD) :
    (Pipeline.ΦA spec0 c : sProp 𝕄)
      = iprop(iprop((∃ d, owns (c : Thread nD τ) scM0_0 fullShare d) ∗ foreign0 (F := F) c) ∗ (∃ r, prngReg c r)) := by
  unfold Pipeline.ΦA; rw [scopedRest0_eq]; simp only [scM0_0, owns_whole]; try rfl

end Cert.Kernel.Hand

end
-- ==== Proof.K.Region0.RunA.lean ====
import proofs.«114790_j36223754174749_2_alg».proof.Proof.K.Region0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body in CASE A (first column of blocks, not the last): the scratch is reset to zero and the block's row sums
    added; the outputs are not stored. On whole memrefs — the inputs' at their contents, the two outputs' at contents
    handed back untouched, the scratch at anything — the body runs to the continuation holding the inputs and outputs
    as they were and the scratch with its pieces written: the pieces are the witness the run finds. -/
noncomputable def kernelRun0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) :
    Σ' (L2 : List (View.Piece (Elt F) S1024x1 .f32)) (L3 : List (View.Piece (Elt F) S1024x512 .bf16)), { LS0 : List (View.Piece (Elt F) S1024x1 .f32) //
      ∀ (xi2 : Vec F S1024x1 .f32) (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dis_kernel i arg2 harg2 arg3 harg3 arg4 harg4 arg5 harg5 arg6 harg6) K } := by
  refine ⟨[], [], ?_, fun xi2 xi3 E K => ?run⟩
  case run =>
    simp only [cc0__dis_kernel_eq_skeleton]; unfold cc0__dis_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Region0.RunB.lean ====
import proofs.«114790_j36223754174749_2_alg».proof.Proof.K.Region0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body in CASE B (a middle column of blocks): the block's row sums are added to the scratch, read at what the
    point before left (`xs0`); the outputs are not stored. The pieces written into the scratch are the witness
    the run finds. -/
noncomputable def kernelRun0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) :
    Σ' (L2 : List (View.Piece (Elt F) S1024x1 .f32)) (L3 : List (View.Piece (Elt F) S1024x512 .bf16)), { LS0 : List (View.Piece (Elt F) S1024x1 .f32) //
      ∀ (xi2 : Vec F S1024x1 .f32) (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dis_kernel i arg2 harg2 arg3 harg3 arg4 harg4 arg5 harg5 arg6 harg6) K } := by
  refine ⟨[], [], ?_, fun xi2 xi3 E K => ?run⟩
  case run =>
    simp only [cc0__dis_kernel_eq_skeleton]; unfold cc0__dis_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Region0.RunC.lean ====
import proofs.«114790_j36223754174749_2_alg».proof.Proof.K.Region0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body in CASE C (last column of blocks): the block's row sums are added to the scratch, read at what the point
    before left (`xs0`), then both outputs are stored whole from the finished sums. On whole memrefs — the inputs'
    at their contents, the outputs' at anything — the body runs to the continuation holding the inputs as they were
    and the outputs and the scratch with their pieces written: the pieces are the witness the run finds. -/
noncomputable def kernelRun0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    Σ' (L2 : List (View.Piece (Elt F) S1024x1 .f32)) (L3 : List (View.Piece (Elt F) S1024x512 .bf16)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__dis_kernel i arg2 harg2 arg3 harg3 arg4 harg4 arg5 harg5 arg6 harg6) K } := by
  refine ⟨?_, ?_, ?_, fun E K => ?run⟩
  case run =>
    simp only [cc0__dis_kernel_eq_skeleton]; unfold cc0__dis_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Hand

end
-- ==== Proof.K.Region0.lean ====
import proofs.«114790_j36223754174749_2_alg».proof.Proof.K.Region0.RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 (the degree kernel): per case what the run leaves, the accumulation point by point, the proof data
    and the body obligation, at the region-entry contents `V`; then what the found pieces are as payloads -/

/-- Case A stores nothing into output window 2 (idle at its points and not written back there): no pieces — a
    placeholder nothing consults. -/
def out0_A_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) : Vec F S1024x1 .f32 :=
  VO0_2.read (Elt F) (VO0_2.writes (Elt F) VO0_2.junk (kernelRun0_A c i arg2 harg2 arg3 harg3 arg4 harg4 arg5 harg5 arg6 harg6 hc0 hc1 x0 x1).1)
/-- The same for output window 3. -/
def out0_A_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) : Vec F S1024x512 .bf16 :=
  VO0_3.read (Elt F) (VO0_3.writes (Elt F) VO0_3.junk (kernelRun0_A c i arg2 harg2 arg3 harg3 arg4 harg4 arg5 harg5 arg6 harg6 hc0 hc1 x0 x1).2.1)
/-- Case A's pieces for the carried scratch cover it: two whole stores (the reset, then the sums added). -/
theorem scover0_A_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) (y : S1024x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x1.size (by sl_kernel_rfl) y
/-- What case A leaves in the carried scratch: its pieces read back. -/
def sout0_A_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) : Vec F S1024x1 .f32 :=
  VS0_0.read (Elt F) (VS0_0.writes (Elt F) VS0_0.junk (kernelRun0_A c i arg2 harg2 arg3 harg3 arg4 harg4 arg5 harg5 arg6 harg6 hc0 hc1 x0 x1).2.2.1)

/-- Case B stores nothing into output window 2 (idle at its points and not written back there): no pieces — a
    placeholder nothing consults. -/
def out0_B_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) : Vec F S1024x1 .f32 :=
  VO0_2.read (Elt F) (VO0_2.writes (Elt F) VO0_2.junk (kernelRun0_B c i arg2 harg2 arg3 harg3 arg4 harg4 arg5 harg5 arg6 harg6 hc0 hc1 x0 x1 xs0).1)
/-- The same for output window 3. -/
def out0_B_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) : Vec F S1024x512 .bf16 :=
  VO0_3.read (Elt F) (VO0_3.writes (Elt F) VO0_3.junk (kernelRun0_B c i arg2 harg2 arg3 harg3 arg4 harg4 arg5 harg5 arg6 harg6 hc0 hc1 x0 x1 xs0).2.1)
/-- Case B's pieces for the carried scratch cover it: one whole store. -/
theorem scover0_B_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) (y : S1024x1.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S1024x1.size (by sl_kernel_rfl) y
/-- What case B leaves in the carried scratch: its pieces read back. -/
def sout0_B_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 x0 x1 xs0).2.2.1)

/-- Case C's pieces for output window 2 tile its block (one whole store), so they cover it. -/
theorem cover0_C_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) (y : S1024x1.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1024x1.size (by sl_kernel_rfl) y
/-- What case C leaves in output window 2's staging buffer: its pieces read back. -/
def out0_C_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) : Vec F S1024x1 .f32 :=
  VO0_2.read (Elt F) (VO0_2.writes (Elt F) VO0_2.junk (kernelRun0_C c i arg2 harg2 arg3 harg3 arg4 harg4 arg5 harg5 arg6 harg6 hc0 hc1 x0 x1 xs0).1)
/-- Case C's pieces for output window 3 tile its block (one whole store), so they cover it. -/
theorem cover0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) (y : S1024x512.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1024x512.size (by sl_kernel_rfl) y
/-- What case C leaves in output window 3's staging buffer: its pieces read back. -/
def out0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) : Vec F S1024x512 .bf16 :=
  VO0_3.read (Elt F) (VO0_3.writes (Elt F) VO0_3.junk (kernelRun0_C c i arg2 harg2 arg3 harg3 arg4 harg4 arg5 harg5 arg6 harg6 hc0 hc1 x0 x1 xs0).2.1)
/-- Case C's pieces for the carried scratch cover it: one whole store. -/
theorem scover0_C_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) (y : S1024x1.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S1024x1.size (by sl_kernel_rfl) y
/-- What case C leaves in the carried scratch: its pieces read back. -/
def sout0_C_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 x0 x1 xs0).2.2.1)

variable (V : (c : Dev nD) → (b : Ref sig .tc) → Buf (Elt F) ((c : Thread nD τ).loc b))

/-! ## What the outputs and the carried scratch hold after each point -/

/-- THE ACCUMULATION. What output window 2's staging buffer, output window 3's staging buffer and the carried scratch
    hold after the body at position `n`: the case the closed forms select at `n`, run at the point's memrefs and
    input blocks, the scratch read at what this leaves at `n - 1`. -/
def outsAt0 (c : Dev nD) : (n : ℕ) → n < cfg0.N → Vec F S1024x1 .f32 × Vec F S1024x512 .bf16 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's invariant (the scratch at
    anything); afterwards the scratch at what the point before left in it (the row sums so far), beside the other
    region's scoped buffers and the generator register, untouched. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ foreign0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ foreign0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ foreign0 (F := F) c) ∗ (∃ r, prngReg c r)) := by
  cases n with
  | zero => exact absurd rfl hz
  | succ n => rfl

/-! ## The pipeline's proof data -/

/-- The proof data of this region's pipeline on core `c`: the arrays as the region finds them (`V`); after the body
    at point `t` each input's buffer at its block and the outputs' at `outsAt0`; the invariant `PhiS0`; nothing
    owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the carried scratch at what the point before left (at anything at the first point; in
    case A, which resets it, that is forgotten) and takes it back at this point's contents; an output the case does not
    store is handed back as found; the other region's buffers, the generator register and the core's debts pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HF⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_A_0 c _ _ _ _ _ _ _ _ _ _ _ _ _ _ _)
            iexact HF
          iexact Hg
        isplitl [Ho]; · iexact Ho
        isplitl [H0]; · iexact H0
        isplitl [H1]; · iexact H1
        isplitl [H2]; · iexists _; iexact H2
        iexists _; iexact H3
      ·
        rw [PhiS0_castSucc V c t, PhiS0_pos V c _ _ hz]
        iintro ⟨⟨⟨HS0, HF⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_A_0 c _ _ _ _ _ _ _ _ _ _ _ _ _ _ _)
            iexact HF
          iexact Hg
        isplitl [Ho]; · iexact Ho
        isplitl [H0]; · iexact H0
        isplitl [H1]; · iexact H1
        isplitl [H2]; · iexists _; iexact H2
        iexists _; iexact H3

  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_2 out0_C_3 sout0_C_0; (try dsimp only)
      by_cases hz : t.val = 0
      · exfalso; omega
      · rw [PhiS0_castSucc V c t, PhiS0_pos V c _ _ hz]
        iintro ⟨⟨⟨HS0, HF⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_C_0 c _ _ _ _ _ _ _ _ _ _ _ _ _ _ _ _)
            iexact HF
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HF⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_B_0 c _ _ _ _ _ _ _ _ _ _ _ _ _ _ _ _)
            iexact HF
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HF⟩, Hg⟩
  isplitl [HS0 HF]
  · isplitl [HS0]
    · iexists _; iexact HS0
    iexact HF
  iexact Hg

/-- The same after the last point. -/
theorem hout0 (c : Dev nD) : (dat0 V c).Φ (Fin.last cfg0.N) ⊢ Pipeline.ΦA spec0 c :=
  Phi0_out V c _ (by rw [Fin.val_last]; have : cfg0.N = 32 := N_0; omega)

/-! ## What the found pieces are, per case, as the body's payloads (any `F`) -/

/-- The whole-buffer accesses start at offset zero in both axes. -/
theorem hzero0 : (![0, 0] : Fin 2 → Nat) = fun _ => 0 := funext fun a => by fin_cases a <;> rfl

/-- CASE B's scratch: the row sums of the block added to what the point before left. -/
theorem sout0_B_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) :
    sout0_B_0 c i arg2 harg2 arg3 harg3 arg4 harg4 arg5 harg5 arg6 harg6 hc0 hc1 x0 x1 xs0 = k0_pay2 xs0 x0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero (S := S1024x1) hzero0]
  simp only [View.readAt_eq_ld, harg6.read_unread, harg2.read_unread, View.ld_unit_zero (S := S1024x1) hzero0, View.ld_unit_zero (S := S1024x2048) hzero0]

/-- CASE A's scratch: the reset stores zero, which is read back, and the block's row sums are added to it. -/
theorem sout0_A_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) :
    sout0_A_0 c i arg2 harg2 arg3 harg3 arg4 harg4 arg5 harg5 arg6 harg6 hc0 hc1 x0 x1 = k0_pay2 (k0_pay1 (F := F)) x0 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hzero0, View.readCov_unit_zero (S := S1024x1) _ hzero0]
  simp only [View.readAt_eq_ld, harg2.read_unread, View.ld_unit_zero (S := S1024x2048) hzero0]

/-- CASE C's scratch: as case B's. -/
theorem sout0_C_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    sout0_C_0 c i arg2 harg2 arg3 harg3 arg4 harg4 arg5 harg5 arg6 harg6 hc0 hc1 x0 x1 xs0 = k0_pay2 xs0 x0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S1024x1) hzero0]
  simp only [View.readAt_eq_ld, harg6.read_unread, harg2.read_unread, View.ld_unit_zero (S := S1024x1) hzero0, View.ld_unit_zero (S := S1024x2048) hzero0]

/-- CASE C's first output: the reciprocal square root of one plus the finished row sums (read back from the scratch). -/
theorem out0_C_2_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    out0_C_2 c i arg2 harg2 arg3 harg3 arg4 harg4 arg5 harg5 arg6 harg6 hc0 hc1 x0 x1 xs0 = k0_pay3 (k0_pay2 xs0 x0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S1024x1) hzero0, View.readCov_unit_zero (S := S1024x1) _ hzero0]
  simp only [View.readAt_eq_ld, harg6.read_unread, harg2.read_unread, View.ld_unit_zero (S := S1024x1) hzero0, View.ld_unit_zero (S := S1024x2048) hzero0]

/-- CASE C's second output: the second input's block scaled row by row by the first output, rounded to bf16. -/
theorem out0_C_3_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    out0_C_3 c i arg2 harg2 arg3 harg3 arg4 harg4 arg5 harg5 arg6 harg6 hc0 hc1 x0 x1 xs0 = k0_pay4 (k0_pay2 xs0 x0) x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S1024x512) hzero0, View.readCov_unit_zero (S := S1024x1) _ hzero0]
  simp only [View.readAt_eq_ld, harg6.read_unread, harg2.read_unread, harg3.read_unread, View.ld_unit_zero (S := S1024x1) hzero0, View.ld_unit_zero (S := S1024x2048) hzero0, View.ld_unit_zero (S := S1024x512) hzero0]

/-! ## What the carried scratch and the outputs hold after a point, as the body's payloads (any `F`) -/

/-- At the first column of blocks the scratch is the block's row sums added to zero. -/
theorem scr0_first (c : Dev nD) (t : Fin cfg0.N) (h0 : t.val % 4 = 0) :
    (outsAt0 V c t.val t.isLt).2.2 = k0_pay2 (k0_pay1 (F := F)) (iblk0 V c 0 t) := by
  rw [outsAt0_A V c t h0 (by omega)]
  dsimp only
  exact sout0_A_val (F := F) ..
/-- At any other column the scratch is the block's row sums added to what the point before left. -/
theorem scr0_next (c : Dev nD) (t : Fin cfg0.N) (h0 : ¬ t.val % 4 = 0) :
    (outsAt0 V c t.val t.isLt).2.2
      = k0_pay2 ((outsAt0 V c (t.val - 1) (Nat.lt_of_le_of_lt (Nat.sub_le _ _) t.isLt)).2.2) (iblk0 V c 0 t) := by
  by_cases h1 : t.val % 4 = 3
  · rw [outsAt0_C V c t h0 h1]
    dsimp only
    exact sout0_C_val (F := F) ..
  · rw [outsAt0_B V c t h0 h1]
    dsimp only
    exact sout0_B_val (F := F) ..
/-- At the last column the first output is the reciprocal square root of one plus the finished row sums. -/
theorem out0_2_last (c : Dev nD) (t : Fin cfg0.N) (h1 : t.val % 4 = 3) :
    (outsAt0 V c t.val t.isLt).1 = k0_pay3 ((outsAt0 V c t.val t.isLt).2.2) := by
  rw [outsAt0_C V c t (by omega) h1]
  dsimp only
  rw [out0_C_2_val, sout0_C_val]
/-- At the last column the second output is the second input's block scaled by the first output, in bf16. -/
theorem out0_3_last (c : Dev nD) (t : Fin cfg0.N) (h1 : t.val % 4 = 3) :
    (outsAt0 V c t.val t.isLt).2.1 = k0_pay4 ((outsAt0 V c t.val t.isLt).2.2) (iblk0 V c 1 t) := by
  rw [outsAt0_C V c t (by omega) h1]
  dsimp only
  rw [out0_C_3_val, sout0_C_val]

end Cert.Kernel.Hand

end
-- ==== Proof.K.Region1.Runs.lean ====
import proofs.«114790_j36223754174749_2_alg».proof.Proof.Gen.Kernel.Launch
import proofs.«114790_j36223754174749_2_alg».proof.Proof.Gen.Kernel.Skeleton
import proofs.«114790_j36223754174749_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch, the block index has not moved since the point before, and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the pipeline
    does not fetch, the block index has not moved since the point before, and the body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the pipeline
    does not fetch, the block index has not moved since the point before, and the body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the pipeline
    does not fetch, the block index has not moved since the point before, and the body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The first condition: the reduction coordinate `k = i 1` is zero (the accumulator is reset). -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the reduction coordinate is the last one, `k = 7` (the output block is produced). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At `k = 0` (case A) the output window is idle: nothing is stored into it, and it is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At `0 < k < 7` (case B) likewise. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At `k = 7` (case C) the output window is live: its whole block is stored. -/
theorem liveAt1_4_C : ∀ t : Fin cfg1.N, ¬cond1_0 (grid1.coords t) → cond1_1 (grid1.coords t) → cfg1.idle 4 (grid1.coords t) = false := by decide +kernel

/-! ## The staging memrefs and the scratch -/

/-- One staging buffer of the output window, through which its contents are stated (the choice does not matter). -/
abbrev VO1_4 : View sig .tc .vmem S1024x512 .f32 := (Memref.whole cc1_stg4_0 : Memref sig .tc .vmem S1024x512 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one reduction step to the next. -/
abbrev scM1_0 : Memref sig .tc .vmem S1024x512 .f32 := Memref.whole cc1_scratch0
/-- The same as a view: what it holds is stated through it. -/
abbrev VS1_0 : View sig .tc .vmem S1024x512 .f32 := scM1_0.view

/-- What the launch hands the region, conjunct by conjunct: the other region's staging buffers and scratch, each whole at
    some contents and never touched here; this region's accumulator owned at some contents; the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.Region1.RunA.lean ====
import proofs.«114790_j36223754174749_2_alg».proof.Proof.K.Region1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point with `k = 0` (case A): on whole staging memrefs — the four inputs at their contents, the output
    window (idle here) at contents `xi4` handed back untouched, the accumulator at anything — it runs to the
    continuation holding the inputs as they were and the accumulator with the pieces `LS0` written: the reset to zero,
    then the first product added. The pieces are the witness the run finds. -/
noncomputable def kernelRun1_A (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Region1.RunB.lean ====
import proofs.«114790_j36223754174749_2_alg».proof.Proof.K.Region1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point with `0 < k < 7` (case B): the four inputs at their contents, the output window (idle here) at
    contents `xi4` handed back untouched, the accumulator at what the step before left (`xs0`); it runs to the
    continuation holding the inputs as they were and the accumulator with the pieces `LS0` written: this step's product
    added to `xs0`. -/
noncomputable def kernelRun1_B (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Region1.RunC.lean ====
import proofs.«114790_j36223754174749_2_alg».proof.Proof.K.Region1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point with `k = 7` (case C): the four inputs at their contents, the output window at anything, the
    accumulator at what the step before left (`xs0`); it runs to the continuation holding the inputs as they were, the
    accumulator with the pieces `LS0` written (the last product added) and the output window with the pieces `L4`
    written (the layer's value on this row block). -/
noncomputable def kernelRun1_C (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Region1.lean ====
import proofs.«114790_j36223754174749_2_alg».proof.Proof.K.Region1.RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each control case leaves in the output window and in the accumulator -/

/-- At `k = 0` nothing is stored into the output window (idle there, and not written back): no pieces — a placeholder
    nothing consults. -/
def out1_A_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) : Vec F S1024x512 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The stores into the accumulator at `k = 0` are each of the whole buffer, so the pieces cover it. -/
theorem scover1_A_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) (y : S1024x512.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x512.size (by sl_kernel_rfl) y

/-- What the step `k = 0` leaves in the accumulator: its pieces read back. -/
def sout1_A_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) : Vec F S1024x512 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- At `0 < k < 7` nothing is stored into the output window (idle there, and not written back): no pieces — a placeholder
    nothing consults. -/
def out1_B_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The stores into the accumulator at `0 < k < 7` are each of the whole buffer, so the pieces cover it. -/
theorem scover1_B_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) (y : S1024x512.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x512.size (by sl_kernel_rfl) y

/-- What the step `0 < k < 7` leaves in the accumulator: its pieces read back. -/
def sout1_B_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- At `k = 7` the one store into the output window is of its whole block, so the pieces cover it. -/
theorem cover1_C_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) (y : S1024x512.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x512.size (by sl_kernel_rfl) y

/-- What the step `k = 7` leaves in the output window's staging buffer: its pieces read back. -/
def out1_C_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- The stores into the accumulator at `k = 7` are each of the whole buffer, so the pieces cover it. -/
theorem scover1_C_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) (y : S1024x512.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x512.size (by sl_kernel_rfl) y

/-- What the step `k = 7` leaves in the accumulator: its pieces read back. -/
def sout1_C_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output window and the accumulator hold after each point -/

/-- THE ACCUMULATION. After the body at position `n`: the output window's staging buffer and the accumulator, by the
    case the reduction coordinate `k = n % 8` selects — `k = 0`: the accumulator restarts from zero whatever it held;
    `0 < k < 7`: this step's product is added to what the step before left; `k = 7`: likewise, and the output block is
    produced from the finished sum. -/
def outsAt1 (c : Dev nD) : (n : ℕ) → n < cfg1.N → Vec F S1024x512 .f32 × Vec F S1024x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point with `k = 0`. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with `0 < k < 7`: over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 7`: over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer at
    anything); afterwards the other region's buffers still at anything, and the accumulator at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- Region 1's proof data on core `c`: the arrays as the region finds them; after the body each input's buffer at its
    block and the output's at `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the reduction coordinate says which case the point is in;
    the run of that case applies; the invariant hands the body the accumulator at what the point before left (at anything
    at the first point) and takes it back at this point's contents; the other region's buffers and the generator register
    pass through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-! ## What the carried scratch and the output hold, as the body's payloads (any `F`) -/

/-- The 1024 rows of the resident `xs` array the body loads for the product at grid coordinates `i` (rows `1024 · i 1 …`). -/
abbrev rCol1 (i : grid1.Coords) : Rect S8192x512 := Rect.unit (s := S8192x512) (k1_off1 i) S1024x512.size (k1_off1_inb i)
/-- The 1024 rows of `xs` it loads for the identity's term at the last reduction step (rows `1024 · i 0 …`). -/
abbrev rRow1 (i : grid1.Coords) (h : k1_cond2 i = 1#1) : Rect S8192x512 := Rect.unit (s := S8192x512) (k1_off2 i) S1024x512.size (k1_off2_inb i h)

/-- The zero offsets of a whole-buffer access, as a function. -/
theorem hz1 : (![0, 0] : Fin 2 → Nat) = fun _ => 0 := funext fun a => by fin_cases a <;> rfl

/-- At `k = 0` the accumulator ends at the first product added to the zero block: the reset's store is read back whole,
    and the last store, of the whole buffer, is what remains. -/
theorem sout1_A_0_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) :
    sout1_A_0 c i arg2 harg2 arg3 harg3 arg4 harg4 arg5 harg5 arg6 harg6 arg7 harg7 hc0 hc1 x0 x1 x2 x3 = k1_pay2 (View.ld x1 (rCol1 i)) x0 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S1024x512) hz1, View.readCov_unit_zero (S := S1024x512) _ hz1]
  simp only [View.readAt_eq_ld, harg2.read_unread, harg3.read_unread, View.ld_unit_zero (S := S1024x1024) hz1]
  try rfl

/-- At `0 < k < 7` the accumulator ends at this step's product added to what it held: one store of the whole buffer. -/
theorem sout1_B_0_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) :
    sout1_B_0 c i arg2 harg2 arg3 harg3 arg4 harg4 arg5 harg5 arg6 harg6 arg7 harg7 hc0 hc1 x0 x1 x2 x3 xs0 = k1_pay2 (View.ld x1 (rCol1 i)) x0 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  rw [View.canon_unit_zero hz1]
  simp only [View.readAt_eq_ld, harg2.read_unread, harg3.read_unread, harg7.read_unread, View.ld_unit_zero (S := S1024x1024) hz1, View.ld_unit_zero (S := S1024x512) hz1]
  try rfl

/-- At `k = 7` likewise. -/
theorem sout1_C_0_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) :
    sout1_C_0 c i arg2 harg2 arg3 harg3 arg4 harg4 arg5 harg5 arg6 harg6 arg7 harg7 hc0 hc1 x0 x1 x2 x3 xs0 = k1_pay2 (View.ld x1 (rCol1 i)) x0 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero hz1]
  simp only [View.readAt_eq_ld, harg2.read_unread, harg3.read_unread, harg7.read_unread, View.ld_unit_zero (S := S1024x1024) hz1, View.ld_unit_zero (S := S1024x512) hz1]
  try rfl

/-- At `k = 7` the output block is the layer's last stage applied to the finished sum (the accumulator read back whole
    after its last store), the row block of `xs`, the `dis` block and the weights. -/
theorem out1_C_4_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) :
    out1_C_4 c i arg2 harg2 arg3 harg3 arg4 harg4 arg5 harg5 arg6 harg6 arg7 harg7 hc0 hc1 x0 x1 x2 x3 xs0
      = k1_pay3 (View.ld x1 (rRow1 i hc1)) (k1_pay2 (View.ld x1 (rCol1 i)) x0 xs0) x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz1, View.readCov_unit_zero (S := S1024x512) _ hz1]
  simp only [View.readAt_eq_ld, harg2.read_unread, harg3.read_unread, harg4.read_unread, harg5.read_unread, harg7.read_unread, View.ld_unit_zero (S := S1024x1024) hz1, View.ld_unit_zero (S := S1024x512) hz1, View.ld_unit_zero (S := S1024x1) hz1, View.ld_unit_zero (S := S512x512) hz1]
  try rfl

theorem scr1_first (c : Dev nD) (t : Fin cfg1.N) (h0 : t.val % 8 = 0) :
    (outsAt1 V c t.val t.isLt).2 = k1_pay2 (View.ld (iblk1 V c 1 t) (rCol1 (grid1.coords t))) (iblk1 V c 0 t) (k1_pay1 (F := F)) := by
  have h1 : ¬ t.val % 8 = 7 := by omega
  rw [outsAt1_A V c t h0 h1]
  dsimp only
  exact sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)
theorem scr1_next (c : Dev nD) (t : Fin cfg1.N) (h0 : ¬ t.val % 8 = 0) :
    (outsAt1 V c t.val t.isLt).2
      = k1_pay2 (View.ld (iblk1 V c 1 t) (rCol1 (grid1.coords t))) (iblk1 V c 0 t)
          ((outsAt1 V c (t.val - 1) (Nat.lt_of_le_of_lt (Nat.sub_le _ _) t.isLt)).2) := by
  by_cases h1 : t.val % 8 = 7
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2
theorem out1_last (c : Dev nD) (t : Fin cfg1.N) (h1 : t.val % 8 = 7) (hc : k1_cond2 (grid1.coords t) = 1#1) :
    (outsAt1 V c t.val t.isLt).1
      = k1_pay3 (View.ld (iblk1 V c 1 t) (rRow1 (grid1.coords t) hc)) ((outsAt1 V c t.val t.isLt).2) (iblk1 V c 2 t) (iblk1 V c 3 t) := by
  have h0 : ¬ t.val % 8 = 0 := by omega
  rw [outsAt1_C V c t h0 h1]
  dsimp only
  rw [sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2]
  exact out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

end Cert.Kernel.Hand

end
-- ==== Proof.K.Run.lean ====
import proofs.«114790_j36223754174749_2_alg».proof.Proof.Gen.Kernel.Launch
import proofs.«114790_j36223754174749_2_alg».proof.Proof.Gen.Kernel.Skeleton
import proofs.«114790_j36223754174749_2_alg».proof.Proof.Gen.Kernel.Points
import proofs.«114790_j36223754174749_2_alg».proof.Proof.Gen.Kernel.Regions
import proofs.«114790_j36223754174749_2_alg».proof.Proof.K.Region0
import proofs.«114790_j36223754174749_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The buffers' contents at each boundary of the program: region 0, the host conversion of the weights, region 1 -/

/-- Core c's buffers at launch: what region 0 is entered from. -/
abbrev W0 : Dev nD → Valuation τ sig (Elt F) := fun c b => (s₀ m ρ).mem ((c : Dev nD), b)
/-- The same, read at the TensorCore's references. -/
abbrev V0 : (c : Dev nD) → (b : Ref sig .tc) → Buf (Elt F) ((c : Thread nD τ).loc b) := fun c b => W0 m ρ c b
theorem V0_apply (c : Dev nD) (b : Ref sig .tc) : V0 m ρ c b = m ((c : Thread nD τ).loc b) := rfl

/-- After region 0: each of its four arrays holds what the pipeline leaves there (an input as entered, an output the
    fold of its write-backs), every other buffer what it held at launch. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host conversion of the weights to bf16: what region 1 is entered from. -/
def W2 (c : Dev nD) : Valuation τ sig (Elt F) := StableHlo.after hostOps1 (W1 m ρ c)
abbrev V2 : (c : Dev nD) → (b : Ref sig .tc) → Buf (Elt F) ((c : Thread nD τ).loc b) := fun c b => W2 m ρ c b
/-- The conversion writes the converted weights only: every other buffer is as region 0 left it. -/
theorem W2_of (c : Dev nD) (r : Ref sig .tc) (h : r ∉ hostOps1_W) :
    W2 m ρ c (Proc.devRef .tc r) = W1 m ρ c (Proc.devRef .tc r) := by
  unfold W2; exact StableHlo.after_of_writes_sub hostOps1 _ hostOps1_writes h

/-- After region 1: each of its five arrays at what the pipeline leaves there, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What region 1 finds in its four input arrays -/

/-- The adjacency matrix is an input of region 0 and untouched by the conversion: it is as launched. -/
theorem V2_main_arg1 (c : Dev nD) : V2 m ρ c main_arg1 = m ((c : Thread nD τ).loc main_arg1) :=
  calc W2 m ρ c (Proc.devRef .tc main_arg1)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- The inverse square roots of the degrees: region 0's first output, as its write-backs left it. -/
theorem V2_main_v0_0 (c : Dev nD) : V2 m ρ c main_v0_0 = (dat0 (V0 m ρ) c).arrAt 2 cfg0.N :=
  (W2_of m ρ c main_v0_0 (by decide)).trans (W1_arr m ρ c 2)
/-- The scaled features in bf16: region 0's second output. -/
theorem V2_main_v0_1 (c : Dev nD) : V2 m ρ c main_v0_1 = (dat0 (V0 m ρ) c).arrAt 3 cfg0.N :=
  (W2_of m ρ c main_v0_1 (by decide)).trans (W1_arr m ρ c 3)
/-- The weights converted to bf16: the conversion's value at the weights as launched (region 0 does not touch them). -/
theorem V2_main_v1 (c : Dev nD) :
    V2 m ρ c main_v1 = (truncf .bf16 · bitsLt_bf16_f32) (m ((c : Thread nD τ).loc main_arg2)) := by
  have h1 : W1 m ρ c (Proc.devRef .tc main_arg2) = m ((c : Thread nD τ).loc main_arg2) :=
    W1_of_ne m ρ c main_arg2 (by decide)
  show StableHlo.after hostOps1 (W1 m ρ c) (Proc.devRef .tc main_v1) = _
  rw [hostOps1, StableHlo.after_cons, StableHlo.after_nil, StableHlo.unary_result', h1]

/-! ## The arguments end as launched, and the result is region 1's output -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 1).trans (((dat0 (V0 m ρ) c).arrAt_in 1 rfl _).trans (A_eq0 (V0 m ρ) c 1))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = V2 m ρ c main_arg1 := (W3_arr m ρ c 0).trans (((dat1 (V2 m ρ) c).arrAt_in 0 rfl _).trans (A_eq1 (V2 m ρ) c 0))
    _ = m ((c : Thread nD τ).loc main_arg1) := V2_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W3_main_v2 (c : Dev nD) : W3 m ρ c (Proc.devRef .tc main_v2) = (dat1 (V2 m ρ) c).arrAt 4 cfg1.N :=
  W3_arr m ρ c 4

/-! # The proof data of both pipelines and the thread state between segments -/

/-- Each pipeline's proof data at the contents its region is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A line of host operations as a segment over the unscoped buffers at contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart: every unscoped buffer at the contents region 1 leaves. -/
abbrev Tₙ (c : Dev nD) : sProp 𝕄 := iprop(StableHlo.held (c : Thread nD τ) (Pipeline.ucRefs τ sig) (W3 m ρ c) ∗ ∃ r, prngReg c r)

/-! ## The two regions as segments -/

set_option backward.isDefEq.respectTransparency.types false in
/-- Region 0: entered from the launch contents, left at W1. Its invariant varies with the point (the row sums are carried
    from point to point), so its ends are reached through the region's own entry and exit entailments. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V0 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from W2 (region 0's outputs and the converted weights in place), left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final memory each unscoped buffer holds what the fold above says (W3). -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The result array ends at what region 1's write-backs leave in it, and the arguments as launched. -/
theorem run_named : θ_run defs (onTc (τ := τ) (main (F := F))) ⟨m, fun _ => 0, ρ⟩ (fun r => ∀ c : Dev nD,
      r.2.mem ((c.tc : Thread nD τ).loc main_v2) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.KI.Region0.Runs.lean ====
import proofs.«114790_j36223754174749_2_alg».proof.Proof.Gen.KernelIdeal.Launch
import proofs.«114790_j36223754174749_2_alg».proof.Proof.Gen.KernelIdeal.Skeleton
import proofs.«114790_j36223754174749_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is fetched at every point, uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: it is fetched
    where the row of blocks changes, and between two fetches its block index does not move, so the block the body
    left in place at the point before is this point's block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional's condition (the column of blocks is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the column of blocks is the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A output window 2 is idle: the case stores nothing into it. -/
theorem idleAt0_2_A : ∀ t : Fin cfg0.N, cond0_0 (grid0.coords t) → ¬cond0_1 (grid0.coords t) → cfg0.idle 2 (grid0.coords t) = true := by decide +kernel
/-- At the points of case A output window 2's block is not written back. -/
theorem noFlush0_2_A : ∀ t : Fin cfg0.N, cond0_0 (grid0.coords t) → ¬cond0_1 (grid0.coords t) → (cfg0.win 2).flush t = false := by decide +kernel
/-- At the points of case A output window 3 is idle: the case stores nothing into it. -/
theorem idleAt0_3_A : ∀ t : Fin cfg0.N, cond0_0 (grid0.coords t) → ¬cond0_1 (grid0.coords t) → cfg0.idle 3 (grid0.coords t) = true := by decide +kernel
/-- At the points of case A output window 3's block is not written back. -/
theorem noFlush0_3_A : ∀ t : Fin cfg0.N, cond0_0 (grid0.coords t) → ¬cond0_1 (grid0.coords t) → (cfg0.win 3).flush t = false := by decide +kernel
/-- At the points of case B output window 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B output window 2's block is not written back. -/
theorem noFlush0_2_B : ∀ t : Fin cfg0.N, ¬cond0_0 (grid0.coords t) → ¬cond0_1 (grid0.coords t) → (cfg0.win 2).flush t = false := by decide +kernel
/-- At the points of case B output window 3 is idle: the case stores nothing into it. -/
theorem idleAt0_3_B : ∀ t : Fin cfg0.N, ¬cond0_0 (grid0.coords t) → ¬cond0_1 (grid0.coords t) → cfg0.idle 3 (grid0.coords t) = true := by decide +kernel
/-- At the points of case B output window 3's block is not written back. -/
theorem noFlush0_3_B : ∀ t : Fin cfg0.N, ¬cond0_0 (grid0.coords t) → ¬cond0_1 (grid0.coords t) → (cfg0.win 3).flush t = false := by decide +kernel
/-- At the points of case C output window 2 is live: the case stores into it. -/
theorem liveAt0_2_C : ∀ t : Fin cfg0.N, ¬cond0_0 (grid0.coords t) → cond0_1 (grid0.coords t) → cfg0.idle 2 (grid0.coords t) = false := by decide +kernel
/-- At the points of case C output window 3 is live: the case stores into it. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of each output window, through which its contents are stated (the choice does not matter). -/
abbrev VO0_2 : View sig .tc .vmem S1024x1 .f32 := (Memref.whole cc0_stg2_0 : Memref sig .tc .vmem S1024x1 .f32).view
abbrev VO0_3 : View sig .tc .vmem S1024x512 .bf16 := (Memref.whole cc0_stg3_0 : Memref sig .tc .vmem S1024x512 .bf16).view
/-- Each window's current staging memref at point `t`, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
/-- The scratch operand: the row sums accumulated so far, carried between points. -/
abbrev scM0_0 : Memref sig .tc .vmem S1024x1 .f32 := Memref.whole cc0_scratch0
abbrev VS0_0 : View sig .tc .vmem S1024x1 .f32 := scM0_0.view

/-- The core's scoped buffers that belong to the other region (its staging buffers and its scratch), each whole
    at some contents: this region's body never touches them. -/
abbrev foreign0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's class invariant, conjunct by conjunct: the carried scratch owned at some contents, the other
    region's scoped buffers, the generator register at some state. -/
theorem PhiA0_eq (c : Dev nD) :
    (Pipeline.ΦA spec0 c : sProp 𝕄)
      = iprop(iprop((∃ d, owns (c : Thread nD τ) scM0_0 fullShare d) ∗ foreign0 (F := F) c) ∗ (∃ r, prngReg c r)) := by
  unfold Pipeline.ΦA; rw [scopedRest0_eq]; simp only [scM0_0, owns_whole]; try rfl

end Cert.KernelIdeal.Hand

end
-- ==== Proof.KI.Region0.RunA.lean ====
import proofs.«114790_j36223754174749_2_alg».proof.Proof.KI.Region0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body in CASE A (first column of blocks, not the last): the scratch is reset to zero and the block's row sums
    added; the outputs are not stored. On whole memrefs — the inputs' at their contents, the two outputs' at contents
    handed back untouched, the scratch at anything — the body runs to the continuation holding the inputs and outputs
    as they were and the scratch with its pieces written: the pieces are the witness the run finds. -/
noncomputable def kernelRun0_A (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) :
    Σ' (L2 : List (View.Piece (Elt F) S1024x1 .f32)) (L3 : List (View.Piece (Elt F) S1024x512 .bf16)), { LS0 : List (View.Piece (Elt F) S1024x1 .f32) //
      ∀ (xi2 : Vec F S1024x1 .f32) (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dis_kernel i arg2 harg2 arg3 harg3 arg4 harg4 arg5 harg5 arg6 harg6) K } := by
  refine ⟨[], [], ?_, fun xi2 xi3 E K => ?run⟩
  case run =>
    simp only [cc0__dis_kernel_eq_skeleton]; unfold cc0__dis_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Region0.RunB.lean ====
import proofs.«114790_j36223754174749_2_alg».proof.Proof.KI.Region0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body in CASE B (a middle column of blocks): the block's row sums are added to the scratch, read at what the
    point before left (`xs0`); the outputs are not stored. The pieces written into the scratch are the witness
    the run finds. -/
noncomputable def kernelRun0_B (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) :
    Σ' (L2 : List (View.Piece (Elt F) S1024x1 .f32)) (L3 : List (View.Piece (Elt F) S1024x512 .bf16)), { LS0 : List (View.Piece (Elt F) S1024x1 .f32) //
      ∀ (xi2 : Vec F S1024x1 .f32) (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__dis_kernel i arg2 harg2 arg3 harg3 arg4 harg4 arg5 harg5 arg6 harg6) K } := by
  refine ⟨[], [], ?_, fun xi2 xi3 E K => ?run⟩
  case run =>
    simp only [cc0__dis_kernel_eq_skeleton]; unfold cc0__dis_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Region0.RunC.lean ====
import proofs.«114790_j36223754174749_2_alg».proof.Proof.KI.Region0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body in CASE C (last column of blocks): the block's row sums are added to the scratch, read at what the point
    before left (`xs0`), then both outputs are stored whole from the finished sums. On whole memrefs — the inputs'
    at their contents, the outputs' at anything — the body runs to the continuation holding the inputs as they were
    and the outputs and the scratch with their pieces written: the pieces are the witness the run finds. -/
noncomputable def kernelRun0_C (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    Σ' (L2 : List (View.Piece (Elt F) S1024x1 .f32)) (L3 : List (View.Piece (Elt F) S1024x512 .bf16)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__dis_kernel i arg2 harg2 arg3 harg3 arg4 harg4 arg5 harg5 arg6 harg6) K } := by
  refine ⟨?_, ?_, ?_, fun E K => ?run⟩
  case run =>
    simp only [cc0__dis_kernel_eq_skeleton]; unfold cc0__dis_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.KI.Region0.lean ====
import proofs.«114790_j36223754174749_2_alg».proof.Proof.KI.Region0.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 (the degree kernel): per case what the run leaves, the accumulation point by point, the proof data
    and the body obligation, at the region-entry contents `V`; then what the found pieces are as payloads -/

/-- Case A stores nothing into output window 2 (idle at its points and not written back there): no pieces — a
    placeholder nothing consults. -/
def out0_A_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) : Vec F S1024x1 .f32 :=
  VO0_2.read (Elt F) (VO0_2.writes (Elt F) VO0_2.junk (kernelRun0_A c i arg2 harg2 arg3 harg3 arg4 harg4 arg5 harg5 arg6 harg6 hc0 hc1 x0 x1).1)
/-- The same for output window 3. -/
def out0_A_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) : Vec F S1024x512 .bf16 :=
  VO0_3.read (Elt F) (VO0_3.writes (Elt F) VO0_3.junk (kernelRun0_A c i arg2 harg2 arg3 harg3 arg4 harg4 arg5 harg5 arg6 harg6 hc0 hc1 x0 x1).2.1)
/-- Case A's pieces for the carried scratch cover it: two whole stores (the reset, then the sums added). -/
theorem scover0_A_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) (y : S1024x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x1.size (by sl_kernel_rfl) y
/-- What case A leaves in the carried scratch: its pieces read back. -/
def sout0_A_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) : Vec F S1024x1 .f32 :=
  VS0_0.read (Elt F) (VS0_0.writes (Elt F) VS0_0.junk (kernelRun0_A c i arg2 harg2 arg3 harg3 arg4 harg4 arg5 harg5 arg6 harg6 hc0 hc1 x0 x1).2.2.1)

/-- Case B stores nothing into output window 2 (idle at its points and not written back there): no pieces — a
    placeholder nothing consults. -/
def out0_B_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) : Vec F S1024x1 .f32 :=
  VO0_2.read (Elt F) (VO0_2.writes (Elt F) VO0_2.junk (kernelRun0_B c i arg2 harg2 arg3 harg3 arg4 harg4 arg5 harg5 arg6 harg6 hc0 hc1 x0 x1 xs0).1)
/-- The same for output window 3. -/
def out0_B_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) : Vec F S1024x512 .bf16 :=
  VO0_3.read (Elt F) (VO0_3.writes (Elt F) VO0_3.junk (kernelRun0_B c i arg2 harg2 arg3 harg3 arg4 harg4 arg5 harg5 arg6 harg6 hc0 hc1 x0 x1 xs0).2.1)
/-- Case B's pieces for the carried scratch cover it: one whole store. -/
theorem scover0_B_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) (y : S1024x1.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S1024x1.size (by sl_kernel_rfl) y
/-- What case B leaves in the carried scratch: its pieces read back. -/
def sout0_B_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 x0 x1 xs0).2.2.1)

/-- Case C's pieces for output window 2 tile its block (one whole store), so they cover it. -/
theorem cover0_C_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) (y : S1024x1.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1024x1.size (by sl_kernel_rfl) y
/-- What case C leaves in output window 2's staging buffer: its pieces read back. -/
def out0_C_2 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) : Vec F S1024x1 .f32 :=
  VO0_2.read (Elt F) (VO0_2.writes (Elt F) VO0_2.junk (kernelRun0_C c i arg2 harg2 arg3 harg3 arg4 harg4 arg5 harg5 arg6 harg6 hc0 hc1 x0 x1 xs0).1)
/-- Case C's pieces for output window 3 tile its block (one whole store), so they cover it. -/
theorem cover0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) (y : S1024x512.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1024x512.size (by sl_kernel_rfl) y
/-- What case C leaves in output window 3's staging buffer: its pieces read back. -/
def out0_C_3 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) : Vec F S1024x512 .bf16 :=
  VO0_3.read (Elt F) (VO0_3.writes (Elt F) VO0_3.junk (kernelRun0_C c i arg2 harg2 arg3 harg3 arg4 harg4 arg5 harg5 arg6 harg6 hc0 hc1 x0 x1 xs0).2.1)
/-- Case C's pieces for the carried scratch cover it: one whole store. -/
theorem scover0_C_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) (y : S1024x1.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S1024x1.size (by sl_kernel_rfl) y
/-- What case C leaves in the carried scratch: its pieces read back. -/
def sout0_C_0 (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 x0 x1 xs0).2.2.1)

variable (V : (c : Dev nD) → (b : Ref sig .tc) → Buf (Elt F) ((c : Thread nD τ).loc b))

/-! ## What the outputs and the carried scratch hold after each point -/

/-- THE ACCUMULATION. What output window 2's staging buffer, output window 3's staging buffer and the carried scratch
    hold after the body at position `n`: the case the closed forms select at `n`, run at the point's memrefs and
    input blocks, the scratch read at what this leaves at `n - 1`. -/
def outsAt0 (c : Dev nD) : (n : ℕ) → n < cfg0.N → Vec F S1024x1 .f32 × Vec F S1024x512 .bf16 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's invariant (the scratch at
    anything); afterwards the scratch at what the point before left in it (the row sums so far), beside the other
    region's scoped buffers and the generator register, untouched. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ foreign0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ foreign0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ foreign0 (F := F) c) ∗ (∃ r, prngReg c r)) := by
  cases n with
  | zero => exact absurd rfl hz
  | succ n => rfl

/-! ## The pipeline's proof data -/

/-- The proof data of this region's pipeline on core `c`: the arrays as the region finds them (`V`); after the body
    at point `t` each input's buffer at its block and the outputs' at `outsAt0`; the invariant `PhiS0`; nothing
    owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the carried scratch at what the point before left (at anything at the first point; in
    case A, which resets it, that is forgotten) and takes it back at this point's contents; an output the case does not
    store is handed back as found; the other region's buffers, the generator register and the core's debts pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HF⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_A_0 c _ _ _ _ _ _ _ _ _ _ _ _ _ _ _)
            iexact HF
          iexact Hg
        isplitl [Ho]; · iexact Ho
        isplitl [H0]; · iexact H0
        isplitl [H1]; · iexact H1
        isplitl [H2]; · iexists _; iexact H2
        iexists _; iexact H3
      ·
        rw [PhiS0_castSucc V c t, PhiS0_pos V c _ _ hz]
        iintro ⟨⟨⟨HS0, HF⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_A_0 c _ _ _ _ _ _ _ _ _ _ _ _ _ _ _)
            iexact HF
          iexact Hg
        isplitl [Ho]; · iexact Ho
        isplitl [H0]; · iexact H0
        isplitl [H1]; · iexact H1
        isplitl [H2]; · iexists _; iexact H2
        iexists _; iexact H3

  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_2 out0_C_3 sout0_C_0; (try dsimp only)
      by_cases hz : t.val = 0
      · exfalso; omega
      · rw [PhiS0_castSucc V c t, PhiS0_pos V c _ _ hz]
        iintro ⟨⟨⟨HS0, HF⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_C_0 c _ _ _ _ _ _ _ _ _ _ _ _ _ _ _ _)
            iexact HF
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HF⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HF Hg]
        · isplitl [HS0 HF]
          · isplitl [HS0]
            · unfold owns; iexists _; isplitr
              swap; · iexact HS0
              ipureintro; exact View.read_writes_of_cover _ _ _ _ _ (scover0_B_0 c _ _ _ _ _ _ _ _ _ _ _ _ _ _ _ _)
            iexact HF
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HF⟩, Hg⟩
  isplitl [HS0 HF]
  · isplitl [HS0]
    · iexists _; iexact HS0
    iexact HF
  iexact Hg

/-- The same after the last point. -/
theorem hout0 (c : Dev nD) : (dat0 V c).Φ (Fin.last cfg0.N) ⊢ Pipeline.ΦA spec0 c :=
  Phi0_out V c _ (by rw [Fin.val_last]; have : cfg0.N = 32 := N_0; omega)

/-! ## What the found pieces are, per case, as the body's payloads (any `F`) -/

/-- The whole-buffer accesses start at offset zero in both axes. -/
theorem hzero0 : (![0, 0] : Fin 2 → Nat) = fun _ => 0 := funext fun a => by fin_cases a <;> rfl

/-- CASE B's scratch: the row sums of the block added to what the point before left. -/
theorem sout0_B_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : ¬cond0_1 i)
    (x0 : Vec F S1024x2048 .f32) (x1 : Vec F S1024x512 .f32) (xs0 : Vec F S1024x1 .f32) :
    sout0_B_0 c i arg2 harg2 arg3 harg3 arg4 harg4 arg5 harg5 arg6 harg6 hc0 hc1 x0 x1 xs0 = k0_pay2 xs0 x0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero (S := S1024x1) hzero0]
  simp only [View.readAt_eq_ld, harg6.read_unread, harg2.read_unread, View.ld_unit_zero (S := S1024x1) hzero0, View.ld_unit_zero (S := S1024x2048) hzero0]

/-- CASE A's scratch: the reset stores zero, which is read back, and the block's row sums are added to it. -/
theorem sout0_A_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : cond0_0 i) (hc1 : ¬cond0_1 i)
    (x0 : Vec F S1024x2048 .f32) (x1 : Vec F S1024x512 .f32) :
    sout0_A_0 c i arg2 harg2 arg3 harg3 arg4 harg4 arg5 harg5 arg6 harg6 hc0 hc1 x0 x1 = k0_pay2 (k0_pay1 (F := F)) x0 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hzero0, View.readCov_unit_zero (S := S1024x1) _ hzero0]
  simp only [View.readAt_eq_ld, harg2.read_unread, View.ld_unit_zero (S := S1024x2048) hzero0]

/-- CASE C's scratch: as case B's. -/
theorem sout0_C_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    sout0_C_0 c i arg2 harg2 arg3 harg3 arg4 harg4 arg5 harg5 arg6 harg6 hc0 hc1 x0 x1 xs0 = k0_pay2 xs0 x0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S1024x1) hzero0]
  simp only [View.readAt_eq_ld, harg6.read_unread, harg2.read_unread, View.ld_unit_zero (S := S1024x1) hzero0, View.ld_unit_zero (S := S1024x2048) hzero0]

/-- CASE C's first output: the reciprocal square root of one plus the finished row sums (read back from the scratch). -/
theorem out0_C_2_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    out0_C_2 c i arg2 harg2 arg3 harg3 arg4 harg4 arg5 harg5 arg6 harg6 hc0 hc1 x0 x1 xs0 = k0_pay3 (k0_pay2 xs0 x0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S1024x1) hzero0, View.readCov_unit_zero (S := S1024x1) _ hzero0]
  simp only [View.readAt_eq_ld, harg6.read_unread, harg2.read_unread, View.ld_unit_zero (S := S1024x1) hzero0, View.ld_unit_zero (S := S1024x2048) hzero0]

/-- CASE C's second output: the second input's block scaled row by row by the first output, rounded to bf16. -/
theorem out0_C_3_val (c : Dev nD) (i : grid0.Coords) (arg2 : Memref sig .tc .vmem S1024x2048 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1024x512 .bf16) (harg5 : arg5.IsWhole) (arg6 : Memref sig .tc .vmem S1024x1 .f32) (harg6 : arg6.IsWhole) (hc0 : ¬cond0_0 i) (hc1 : cond0_1 i)
    (x0 : Vec F S1024x2048 .f32) (x1 : Vec F S1024x512 .f32) (xs0 : Vec F S1024x1 .f32) :
    out0_C_3 c i arg2 harg2 arg3 harg3 arg4 harg4 arg5 harg5 arg6 harg6 hc0 hc1 x0 x1 xs0 = k0_pay4 (k0_pay2 xs0 x0) x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S1024x512) hzero0, View.readCov_unit_zero (S := S1024x1) _ hzero0]
  simp only [View.readAt_eq_ld, harg6.read_unread, harg2.read_unread, harg3.read_unread, View.ld_unit_zero (S := S1024x1) hzero0, View.ld_unit_zero (S := S1024x2048) hzero0, View.ld_unit_zero (S := S1024x512) hzero0]

/-! ## What the carried scratch and the outputs hold after a point, as the body's payloads (any `F`) -/

/-- At the first column of blocks the scratch is the block's row sums added to zero. -/
theorem scr0_first (c : Dev nD) (t : Fin cfg0.N) (h0 : t.val % 4 = 0) :
    (outsAt0 V c t.val t.isLt).2.2 = k0_pay2 (k0_pay1 (F := F)) (iblk0 V c 0 t) := by
  rw [outsAt0_A V c t h0 (by omega)]
  dsimp only
  exact sout0_A_val (F := F) ..
/-- At any other column the scratch is the block's row sums added to what the point before left. -/
theorem scr0_next (c : Dev nD) (t : Fin cfg0.N) (h0 : ¬ t.val % 4 = 0) :
    (outsAt0 V c t.val t.isLt).2.2
      = k0_pay2 ((outsAt0 V c (t.val - 1) (Nat.lt_of_le_of_lt (Nat.sub_le _ _) t.isLt)).2.2) (iblk0 V c 0 t) := by
  by_cases h1 : t.val % 4 = 3
  · rw [outsAt0_C V c t h0 h1]
    dsimp only
    exact sout0_C_val (F := F) ..
  · rw [outsAt0_B V c t h0 h1]
    dsimp only
    exact sout0_B_val (F := F) ..
/-- At the last column the first output is the reciprocal square root of one plus the finished row sums. -/
theorem out0_2_last (c : Dev nD) (t : Fin cfg0.N) (h1 : t.val % 4 = 3) :
    (outsAt0 V c t.val t.isLt).1 = k0_pay3 ((outsAt0 V c t.val t.isLt).2.2) := by
  rw [outsAt0_C V c t (by omega) h1]
  dsimp only
  rw [out0_C_2_val, sout0_C_val]
/-- At the last column the second output is the second input's block scaled by the first output, in bf16. -/
theorem out0_3_last (c : Dev nD) (t : Fin cfg0.N) (h1 : t.val % 4 = 3) :
    (outsAt0 V c t.val t.isLt).2.1 = k0_pay4 ((outsAt0 V c t.val t.isLt).2.2) (iblk0 V c 1 t) := by
  rw [outsAt0_C V c t (by omega) h1]
  dsimp only
  rw [out0_C_3_val, sout0_C_val]

end Cert.KernelIdeal.Hand

end
-- ==== Proof.KI.Region1.Runs.lean ====
import proofs.«114790_j36223754174749_2_alg».proof.Proof.Gen.KernelIdeal.Launch
import proofs.«114790_j36223754174749_2_alg».proof.Proof.Gen.KernelIdeal.Skeleton
import proofs.«114790_j36223754174749_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch, the block index has not moved since the point before, and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the pipeline
    does not fetch, the block index has not moved since the point before, and the body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the pipeline
    does not fetch, the block index has not moved since the point before, and the body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the pipeline
    does not fetch, the block index has not moved since the point before, and the body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- The first condition: the reduction coordinate `k = i 1` is zero (the accumulator is reset). -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the reduction coordinate is the last one, `k = 7` (the output block is produced). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At `k = 0` (case A) the output window is idle: nothing is stored into it, and it is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At `0 < k < 7` (case B) likewise. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At `k = 7` (case C) the output window is live: its whole block is stored. -/
theorem liveAt1_4_C : ∀ t : Fin cfg1.N, ¬cond1_0 (grid1.coords t) → cond1_1 (grid1.coords t) → cfg1.idle 4 (grid1.coords t) = false := by decide +kernel

/-! ## The staging memrefs and the scratch -/

/-- One staging buffer of the output window, through which its contents are stated (the choice does not matter). -/
abbrev VO1_4 : View sig .tc .vmem S1024x512 .f32 := (Memref.whole cc1_stg4_0 : Memref sig .tc .vmem S1024x512 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one reduction step to the next. -/
abbrev scM1_0 : Memref sig .tc .vmem S1024x512 .f32 := Memref.whole cc1_scratch0
/-- The same as a view: what it holds is stated through it. -/
abbrev VS1_0 : View sig .tc .vmem S1024x512 .f32 := scM1_0.view

/-- What the launch hands the region, conjunct by conjunct: the other region's staging buffers and scratch, each whole at
    some contents and never touched here; this region's accumulator owned at some contents; the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.Region1.RunA.lean ====
import proofs.«114790_j36223754174749_2_alg».proof.Proof.KI.Region1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point with `k = 0` (case A): on whole staging memrefs — the four inputs at their contents, the output
    window (idle here) at contents `xi4` handed back untouched, the accumulator at anything — it runs to the
    continuation holding the inputs as they were and the accumulator with the pieces `LS0` written: the reset to zero,
    then the first product added. The pieces are the witness the run finds. -/
noncomputable def kernelRun1_A (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Region1.RunB.lean ====
import proofs.«114790_j36223754174749_2_alg».proof.Proof.KI.Region1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point with `0 < k < 7` (case B): the four inputs at their contents, the output window (idle here) at
    contents `xi4` handed back untouched, the accumulator at what the step before left (`xs0`); it runs to the
    continuation holding the inputs as they were and the accumulator with the pieces `LS0` written: this step's product
    added to `xs0`. -/
noncomputable def kernelRun1_B (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) :
    Σ' (L4 : List (View.Piece (Elt F) S1024x512 .f32)), { LS0 : List (View.Piece (Elt F) S1024x512 .f32) //
      ∀ (xi4 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Region1.RunC.lean ====
import proofs.«114790_j36223754174749_2_alg».proof.Proof.KI.Region1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point with `k = 7` (case C): the four inputs at their contents, the output window at anything, the
    accumulator at what the step before left (`xs0`); it runs to the continuation holding the inputs as they were, the
    accumulator with the pieces `LS0` written (the last product added) and the output window with the pieces `L4`
    written (the layer's value on this row block). -/
noncomputable def kernelRun1_C (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) :
    Σ' (L4 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Region1.lean ====
import proofs.«114790_j36223754174749_2_alg».proof.Proof.KI.Region1.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each control case leaves in the output window and in the accumulator -/

/-- At `k = 0` nothing is stored into the output window (idle there, and not written back): no pieces — a placeholder
    nothing consults. -/
def out1_A_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) : Vec F S1024x512 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The stores into the accumulator at `k = 0` are each of the whole buffer, so the pieces cover it. -/
theorem scover1_A_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) (y : S1024x512.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x512.size (by sl_kernel_rfl) y

/-- What the step `k = 0` leaves in the accumulator: its pieces read back. -/
def sout1_A_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) : Vec F S1024x512 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- At `0 < k < 7` nothing is stored into the output window (idle there, and not written back): no pieces — a placeholder
    nothing consults. -/
def out1_B_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The stores into the accumulator at `0 < k < 7` are each of the whole buffer, so the pieces cover it. -/
theorem scover1_B_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) (y : S1024x512.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x512.size (by sl_kernel_rfl) y

/-- What the step `0 < k < 7` leaves in the accumulator: its pieces read back. -/
def sout1_B_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- At `k = 7` the one store into the output window is of its whole block, so the pieces cover it. -/
theorem cover1_C_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) (y : S1024x512.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x512.size (by sl_kernel_rfl) y

/-- What the step `k = 7` leaves in the output window's staging buffer: its pieces read back. -/
def out1_C_4 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- The stores into the accumulator at `k = 7` are each of the whole buffer, so the pieces cover it. -/
theorem scover1_C_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) (y : S1024x512.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x512.size (by sl_kernel_rfl) y

/-- What the step `k = 7` leaves in the accumulator: its pieces read back. -/
def sout1_C_0 (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output window and the accumulator hold after each point -/

/-- THE ACCUMULATION. After the body at position `n`: the output window's staging buffer and the accumulator, by the
    case the reduction coordinate `k = n % 8` selects — `k = 0`: the accumulator restarts from zero whatever it held;
    `0 < k < 7`: this step's product is added to what the step before left; `k = 7`: likewise, and the output block is
    produced from the finished sum. -/
def outsAt1 (c : Dev nD) : (n : ℕ) → n < cfg1.N → Vec F S1024x512 .f32 × Vec F S1024x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point with `k = 0`. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with `0 < k < 7`: over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 7`: over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped buffer at
    anything); afterwards the other region's buffers still at anything, and the accumulator at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- Region 1's proof data on core `c`: the arrays as the region finds them; after the body each input's buffer at its
    block and the output's at `outsAt1`; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the reduction coordinate says which case the point is in;
    the run of that case applies; the invariant hands the body the accumulator at what the point before left (at anything
    at the first point) and takes it back at this point's contents; the other region's buffers and the generator register
    pass through untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

/-! ## What the carried scratch and the output hold, as the body's payloads (any `F`) -/

/-- The 1024 rows of the resident `xs` array the body loads for the product at grid coordinates `i` (rows `1024 · i 1 …`). -/
abbrev rCol1 (i : grid1.Coords) : Rect S8192x512 := Rect.unit (s := S8192x512) (k1_off1 i) S1024x512.size (k1_off1_inb i)
/-- The 1024 rows of `xs` it loads for the identity's term at the last reduction step (rows `1024 · i 0 …`). -/
abbrev rRow1 (i : grid1.Coords) (h : k1_cond2 i = 1#1) : Rect S8192x512 := Rect.unit (s := S8192x512) (k1_off2 i) S1024x512.size (k1_off2_inb i h)

/-- The zero offsets of a whole-buffer access, as a function. -/
theorem hz1 : (![0, 0] : Fin 2 → Nat) = fun _ => 0 := funext fun a => by fin_cases a <;> rfl

/-- At `k = 0` the accumulator ends at the first product added to the zero block: the reset's store is read back whole,
    and the last store, of the whole buffer, is what remains. -/
theorem sout1_A_0_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : cond1_0 i) (hc1 : ¬cond1_1 i)
    (x0 : Vec F S1024x1024 .f32) (x1 : Vec F S8192x512 .bf16) (x2 : Vec F S1024x1 .f32) (x3 : Vec F S512x512 .bf16) :
    sout1_A_0 c i arg2 harg2 arg3 harg3 arg4 harg4 arg5 harg5 arg6 harg6 arg7 harg7 hc0 hc1 x0 x1 x2 x3 = k1_pay2 (View.ld x1 (rCol1 i)) x0 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S1024x512) hz1, View.readCov_unit_zero (S := S1024x512) _ hz1]
  simp only [View.readAt_eq_ld, harg2.read_unread, harg3.read_unread, View.ld_unit_zero (S := S1024x1024) hz1]
  try rfl

/-- At `0 < k < 7` the accumulator ends at this step's product added to what it held: one store of the whole buffer. -/
theorem sout1_B_0_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : ¬cond1_1 i)
    (x0 : Vec F S1024x1024 .f32) (x1 : Vec F S8192x512 .bf16) (x2 : Vec F S1024x1 .f32) (x3 : Vec F S512x512 .bf16) (xs0 : Vec F S1024x512 .f32) :
    sout1_B_0 c i arg2 harg2 arg3 harg3 arg4 harg4 arg5 harg5 arg6 harg6 arg7 harg7 hc0 hc1 x0 x1 x2 x3 xs0 = k1_pay2 (View.ld x1 (rCol1 i)) x0 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  rw [View.canon_unit_zero hz1]
  simp only [View.readAt_eq_ld, harg2.read_unread, harg3.read_unread, harg7.read_unread, View.ld_unit_zero (S := S1024x1024) hz1, View.ld_unit_zero (S := S1024x512) hz1]
  try rfl

/-- At `k = 7` likewise. -/
theorem sout1_C_0_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) :
    sout1_C_0 c i arg2 harg2 arg3 harg3 arg4 harg4 arg5 harg5 arg6 harg6 arg7 harg7 hc0 hc1 x0 x1 x2 x3 xs0 = k1_pay2 (View.ld x1 (rCol1 i)) x0 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero hz1]
  simp only [View.readAt_eq_ld, harg2.read_unread, harg3.read_unread, harg7.read_unread, View.ld_unit_zero (S := S1024x1024) hz1, View.ld_unit_zero (S := S1024x512) hz1]
  try rfl

/-- At `k = 7` the output block is the layer's last stage applied to the finished sum (the accumulator read back whole
    after its last store), the row block of `xs`, the `dis` block and the weights. -/
theorem out1_C_4_eq (c : Dev nD) (i : grid1.Coords) (arg2 : Memref sig .tc .vmem S1024x1024 .f32) (harg2 : arg2.IsWhole) (arg3 : Memref sig .tc .vmem S8192x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (hc0 : ¬cond1_0 i) (hc1 : cond1_1 i)
    (x0 : Vec F S1024x1024 .f32) (x1 : Vec F S8192x512 .bf16) (x2 : Vec F S1024x1 .f32) (x3 : Vec F S512x512 .bf16) (xs0 : Vec F S1024x512 .f32) :
    out1_C_4 c i arg2 harg2 arg3 harg3 arg4 harg4 arg5 harg5 arg6 harg6 arg7 harg7 hc0 hc1 x0 x1 x2 x3 xs0
      = k1_pay3 (View.ld x1 (rRow1 i hc1)) (k1_pay2 (View.ld x1 (rCol1 i)) x0 xs0) x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz1, View.readCov_unit_zero (S := S1024x512) _ hz1]
  simp only [View.readAt_eq_ld, harg2.read_unread, harg3.read_unread, harg4.read_unread, harg5.read_unread, harg7.read_unread, View.ld_unit_zero (S := S1024x1024) hz1, View.ld_unit_zero (S := S1024x512) hz1, View.ld_unit_zero (S := S1024x1) hz1, View.ld_unit_zero (S := S512x512) hz1]
  try rfl

theorem scr1_first (c : Dev nD) (t : Fin cfg1.N) (h0 : t.val % 8 = 0) :
    (outsAt1 V c t.val t.isLt).2 = k1_pay2 (View.ld (iblk1 V c 1 t) (rCol1 (grid1.coords t))) (iblk1 V c 0 t) (k1_pay1 (F := F)) := by
  have h1 : ¬ t.val % 8 = 7 := by omega
  rw [outsAt1_A V c t h0 h1]
  dsimp only
  exact sout1_A_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)
theorem scr1_next (c : Dev nD) (t : Fin cfg1.N) (h0 : ¬ t.val % 8 = 0) :
    (outsAt1 V c t.val t.isLt).2
      = k1_pay2 (View.ld (iblk1 V c 1 t) (rCol1 (grid1.coords t))) (iblk1 V c 0 t)
          ((outsAt1 V c (t.val - 1) (Nat.lt_of_le_of_lt (Nat.sub_le _ _) t.isLt)).2) := by
  by_cases h1 : t.val % 8 = 7
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2
theorem out1_last (c : Dev nD) (t : Fin cfg1.N) (h1 : t.val % 8 = 7) (hc : k1_cond2 (grid1.coords t) = 1#1) :
    (outsAt1 V c t.val t.isLt).1
      = k1_pay3 (View.ld (iblk1 V c 1 t) (rRow1 (grid1.coords t) hc)) ((outsAt1 V c t.val t.isLt).2) (iblk1 V c 2 t) (iblk1 V c 3 t) := by
  have h0 : ¬ t.val % 8 = 0 := by omega
  rw [outsAt1_C V c t h0 h1]
  dsimp only
  rw [sout1_C_0_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2]
  exact out1_C_4_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

end Cert.KernelIdeal.Hand

end
-- ==== Proof.KI.Run.lean ====
import proofs.«114790_j36223754174749_2_alg».proof.Proof.Gen.KernelIdeal.Launch
import proofs.«114790_j36223754174749_2_alg».proof.Proof.Gen.KernelIdeal.Skeleton
import proofs.«114790_j36223754174749_2_alg».proof.Proof.Gen.KernelIdeal.Points
import proofs.«114790_j36223754174749_2_alg».proof.Proof.Gen.KernelIdeal.Regions
import proofs.«114790_j36223754174749_2_alg».proof.Proof.KI.Region0
import proofs.«114790_j36223754174749_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The buffers' contents at each boundary of the program: region 0, the host conversion of the weights, region 1 -/

/-- Core c's buffers at launch: what region 0 is entered from. -/
abbrev W0 : Dev nD → Valuation τ sig (Elt F) := fun c b => (s₀ m ρ).mem ((c : Dev nD), b)
/-- The same, read at the TensorCore's references. -/
abbrev V0 : (c : Dev nD) → (b : Ref sig .tc) → Buf (Elt F) ((c : Thread nD τ).loc b) := fun c b => W0 m ρ c b
theorem V0_apply (c : Dev nD) (b : Ref sig .tc) : V0 m ρ c b = m ((c : Thread nD τ).loc b) := rfl

/-- After region 0: each of its four arrays holds what the pipeline leaves there (an input as entered, an output the
    fold of its write-backs), every other buffer what it held at launch. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host conversion of the weights to bf16: what region 1 is entered from. -/
def W2 (c : Dev nD) : Valuation τ sig (Elt F) := StableHlo.after hostOps1 (W1 m ρ c)
abbrev V2 : (c : Dev nD) → (b : Ref sig .tc) → Buf (Elt F) ((c : Thread nD τ).loc b) := fun c b => W2 m ρ c b
/-- The conversion writes the converted weights only: every other buffer is as region 0 left it. -/
theorem W2_of (c : Dev nD) (r : Ref sig .tc) (h : r ∉ hostOps1_W) :
    W2 m ρ c (Proc.devRef .tc r) = W1 m ρ c (Proc.devRef .tc r) := by
  unfold W2; exact StableHlo.after_of_writes_sub hostOps1 _ hostOps1_writes h

/-- After region 1: each of its five arrays at what the pipeline leaves there, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What region 1 finds in its four input arrays -/

/-- The adjacency matrix is an input of region 0 and untouched by the conversion: it is as launched. -/
theorem V2_main_arg1 (c : Dev nD) : V2 m ρ c main_arg1 = m ((c : Thread nD τ).loc main_arg1) :=
  calc W2 m ρ c (Proc.devRef .tc main_arg1)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- The inverse square roots of the degrees: region 0's first output, as its write-backs left it. -/
theorem V2_main_v0_0 (c : Dev nD) : V2 m ρ c main_v0_0 = (dat0 (V0 m ρ) c).arrAt 2 cfg0.N :=
  (W2_of m ρ c main_v0_0 (by decide)).trans (W1_arr m ρ c 2)
/-- The scaled features in bf16: region 0's second output. -/
theorem V2_main_v0_1 (c : Dev nD) : V2 m ρ c main_v0_1 = (dat0 (V0 m ρ) c).arrAt 3 cfg0.N :=
  (W2_of m ρ c main_v0_1 (by decide)).trans (W1_arr m ρ c 3)
/-- The weights converted to bf16: the conversion's value at the weights as launched (region 0 does not touch them). -/
theorem V2_main_v1 (c : Dev nD) :
    V2 m ρ c main_v1 = (truncf .bf16 · bitsLt_bf16_f32) (m ((c : Thread nD τ).loc main_arg2)) := by
  have h1 : W1 m ρ c (Proc.devRef .tc main_arg2) = m ((c : Thread nD τ).loc main_arg2) :=
    W1_of_ne m ρ c main_arg2 (by decide)
  show StableHlo.after hostOps1 (W1 m ρ c) (Proc.devRef .tc main_v1) = _
  rw [hostOps1, StableHlo.after_cons, StableHlo.after_nil, StableHlo.unary_result', h1]

/-! ## The arguments end as launched, and the result is region 1's output -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 1).trans (((dat0 (V0 m ρ) c).arrAt_in 1 rfl _).trans (A_eq0 (V0 m ρ) c 1))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = V2 m ρ c main_arg1 := (W3_arr m ρ c 0).trans (((dat1 (V2 m ρ) c).arrAt_in 0 rfl _).trans (A_eq1 (V2 m ρ) c 0))
    _ = m ((c : Thread nD τ).loc main_arg1) := V2_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W3_main_v2 (c : Dev nD) : W3 m ρ c (Proc.devRef .tc main_v2) = (dat1 (V2 m ρ) c).arrAt 4 cfg1.N :=
  W3_arr m ρ c 4

/-! # The proof data of both pipelines and the thread state between segments -/

/-- Each pipeline's proof data at the contents its region is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A line of host operations as a segment over the unscoped buffers at contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart: every unscoped buffer at the contents region 1 leaves. -/
abbrev Tₙ (c : Dev nD) : sProp 𝕄 := iprop(StableHlo.held (c : Thread nD τ) (Pipeline.ucRefs τ sig) (W3 m ρ c) ∗ ∃ r, prngReg c r)

/-! ## The two regions as segments -/

set_option backward.isDefEq.respectTransparency.types false in
/-- Region 0: entered from the launch contents, left at W1. Its invariant varies with the point (the row sums are carried
    from point to point), so its ends are reached through the region's own entry and exit entailments. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from hin0 (V0 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from W2 (region 0's outputs and the converted weights in place), left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final memory each unscoped buffer holds what the fold above says (W3). -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The result array ends at what region 1's write-backs leave in it, and the arguments as launched. -/
theorem run_named : θ_run defs (onTc (τ := τ) (main (F := F))) ⟨m, fun _ => 0, ρ⟩ (fun r => ∀ c : Dev nD,
      r.2.mem ((c.tc : Thread nD τ).loc main_v2) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.Ref.Run.lean ====
import proofs.«114790_j36223754174749_2_alg».proof.Proof.Gen.ReferenceIdeal
import proofs.«114790_j36223754174749_2_alg».proof.ReferenceIdeal
import Idealize.ShloMosaic.Lib.StableHlo.Run

/-!
  The reference's run. @main is nineteen host operations followed by a call of @elu, which itself calls @_where
  and @_where_0; with the three bodies unfolded at their calls it is one straight line of thirty-four operations,
  one per tensor value, each writing its own buffer. Its result is therefore one pure function of the three
  argument arrays, 'refOut', the operations composed; the arguments are left as they were.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The identity matrix as the reference builds it: the row index (plus a broadcast zero) compared with the
    column index, the truth value converted to a float. -/
def eye : FVec F S8192x8192 .f32 :=
  uitofp .f32
    (cmpi .eq
      (addi (iotaInDim S8192x8192 32 0 : IVec S8192x8192 32)
        (broadcastInDim S8192x8192 ![] bcast_S_S8192x8192 (constantI S_ 32 0#32 : IVec S_ 32)))
      (iotaInDim S8192x8192 32 1 : IVec S8192x8192 32))

/-- 'adj + I'. -/
def adjI (adj : FVec F S8192x8192 .f32) : FVec F S8192x8192 .f32 := addf adj (eye (F := F))

/-- The inverse square root of each row's sum of 'adj + I' (the sum started from the constant zero). -/
def dinv (adj : FVec F S8192x8192 .f32) : FVec F S8192 .f32 :=
  Host.rsqrt (Host.reduceAdd (adjI adj) (constant (F := F) S_ .f32 0x00000000#32) reducesTo_S8192x8192_S8192_d1 h_S_)

/-- The normalized adjacency: scaled by the row's factor, then by the column's. -/
def ahat (adj : FVec F S8192x8192 .f32) : FVec F S8192x8192 .f32 :=
  mulf
    (mulf (adjI adj)
      (broadcastInDim S8192x8192 ![0, 1] bcast_S8192x1_S8192x8192_0_1
        (broadcastInDim S8192x1 ![0] bcast_S8192_S8192x1_0 (dinv adj))))
    (broadcastInDim S8192x8192 ![0, 1] bcast_S1x8192_S8192x8192_0_1
      (broadcastInDim S1x8192 ![1] bcast_S8192_S1x8192_1 (dinv adj)))

/-- The logits: the normalized adjacency times the features, times the weights. -/
def logits (x : FVec F S8192x512 .f32) (adj : FVec F S8192x8192 .f32) (w : FVec F S512x512 .f32) : FVec F S8192x512 .f32 :=
  Host.dotGeneral dot_S8192x512_S512x512_S8192x512_1_0_0_1_n_n none
    (Host.dotGeneral dot_S8192x8192_S8192x512_S8192x512_1_0_0_1_n_n none (ahat adj) x) w

/-- @elu on an array 'l': where 'l > 0' it is 'l', elsewhere 'one * expm1 (where l > 0 then zero else l)', the zeros
    and the one broadcast scalars. -/
def elu (l : FVec F S8192x512 .f32) : FVec F S8192x512 .f32 :=
  select
    (cmpf .ogt l (broadcastInDim S8192x512 ![] bcast_S_S8192x512 (constant (F := F) S_ .f32 0x00000000#32)))
    l
    (mulf
      (broadcastInDim S8192x512 ![] bcast_S_S8192x512 (constant (F := F) S_ .f32 0x3F800000#32))
      (Host.expm1
        (select
          (cmpf .ogt l (broadcastInDim S8192x512 ![] bcast_S_S8192x512 (constant (F := F) S_ .f32 0x00000000#32)))
          (broadcastInDim S8192x512 ![] bcast_S_S8192x512 (id (constant (F := F) S_ .f32 0x00000000#32)))
          l)))

/-- The reference's result as ONE pure function of the three argument arrays: its operations composed. -/
def refOut (x : FVec F S8192x512 .f32) (adj : FVec F S8192x8192 .f32) (w : FVec F S512x512 .f32) : FVec F S8192x512 .f32 :=
  elu (logits x adj w)

/-- @main's thirty-four operations in order, the calls unfolded: its own nineteen, then @elu's over the buffers of
    its call — two zeros broadcast and compared with the logits, a third zero passed to @_where (converted to its
    own type, broadcast, selected against the logits), the exponential minus one, the constant one broadcast, the
    product, and @_where_0's select into the result. -/
abbrev ops : List (HloOp τ sig (Elt F)) :=
  [ nullary main_v0 (iotaInDim S8192x8192 32 0),
    nullary main_v1 (iotaInDim S8192x8192 32 1),
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    unary main_v4 main_v5 (uitofp .f32 : (⟨S8192x8192, .i1⟩ : BufTy).Contents (Elt F) → (⟨S8192x8192, .f32⟩ : BufTy).Contents (Elt F)),
    binary main_arg1 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v6 main_cst main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v7 main_v8 (Host.rsqrt : (⟨S8192, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v9 main_v10 (broadcastInDim S8192x8192 ![0, 1] bcast_S8192x1_S8192x8192_0_1 : (⟨S8192x1, .f32⟩ : BufTy).Contents (Elt F) → (⟨S8192x8192, .f32⟩ : BufTy).Contents (Elt F)),
    binary main_v6 main_v10 main_v11 (mulf : (⟨S8192x8192, .f32⟩ : BufTy).Contents (Elt F) → (⟨S8192x8192, .f32⟩ : BufTy).Contents (Elt F) → (⟨S8192x8192, .f32⟩ : BufTy).Contents (Elt F)),
    unary main_v8 main_v12 (broadcastInDim S1x8192 ![1] bcast_S8192_S1x8192_1 : (⟨S8192, .f32⟩ : BufTy).Contents (Elt F) → (⟨S1x8192, .f32⟩ : BufTy).Contents (Elt F)),
    unary main_v12 main_v13 (broadcastInDim S8192x8192 ![0, 1] bcast_S1x8192_S8192x8192_0_1 : (⟨S1x8192, .f32⟩ : BufTy).Contents (Elt F) → (⟨S8192x8192, .f32⟩ : BufTy).Contents (Elt F)),
    binary main_v11 main_v13 main_v14 (mulf : (⟨S8192x8192, .f32⟩ : BufTy).Contents (Elt F) → (⟨S8192x8192, .f32⟩ : BufTy).Contents (Elt F) → (⟨S8192x8192, .f32⟩ : BufTy).Contents (Elt F)),
    binary main_v14 main_arg0 main_v15 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_v15 main_arg2 main_v16 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    TRef.nullary main_call0.cst (constant S_ .f32 0x00000000#32),
    TRef.unary main_call0.cst main_call0.v0 (broadcastInDim S8192x512 ![] bcast_S_S8192x512),
    TRef.binary (.of main_v16) main_call0.v0 main_call0.v1 (cmpf .ogt),
    TRef.nullary main_call0.cst_0 (constant S_ .f32 0x00000000#32),
    TRef.unary main_call0.cst_0 main_call0.v2 (broadcastInDim S8192x512 ![] bcast_S_S8192x512),
    TRef.binary (.of main_v16) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8192x512 ![] bcast_S_S8192x512),
    TRef.ternary main_call0.v3 main_call0.call0.v1 (.of main_v16) main_call0.call0.v2 select,
    TRef.unary main_call0.call0.v2 main_call0.v5 Host.expm1,
    TRef.nullary main_call0.cst_2 (constant S_ .f32 0x3F800000#32),
    TRef.unary main_call0.cst_2 main_call0.v6 (broadcastInDim S8192x512 ![] bcast_S_S8192x512),
    TRef.binary main_call0.v6 main_call0.v5 main_call0.v7 mulf,
    TRef.ternary main_call0.v1 (.of main_v16) main_call0.v7 main_call0.call1.v0 select ]

-- sequencing is associative: the thirty-four nested binds are one chain
set_option maxRecDepth 1024 in
/-- @main is that straight line: the three functions' definitions unfolded at their calls, both sides are one chain
    of host steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., binary_bufs_sub .., nullary_bufs_sub .., binary_bufs_sub .., unary_bufs_sub .., unary_bufs_sub ..,
    unary_bufs_sub .., binary_bufs_sub .., unary_bufs_sub .., unary_bufs_sub .., binary_bufs_sub .., binary_bufs_sub ..,
    binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- The fold of the thirty-four operations at the result buffer is 'refOut' of the three arguments' contents: each
    operation's result at its own buffer is its function's value, at any other buffer what was there, and the typed
    references' transports are the identity at these literal references. -/
theorem out_eq (V : Valuation τ sig (Elt F)) :
    after ops V (main_v17 : DevRef τ sig)
      = refOut (V (main_arg0 : DevRef τ sig)) (V (main_arg1 : DevRef τ sig)) (V (main_arg2 : DevRef τ sig)) := by
  after_results_simp
  simp only [TRef.toBuf, TRef.ofBuf, cast_eq, refOut, elu, logits, ahat, dinv, adjI, eye]

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with the result buffer at 'refOut' of the three arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v17) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v17).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Hand

end
-- ==== Proof.KI.Payloads.lean ====
/-
  The values the kernel stores, read at one index over the extended reals.

  Each store of the two kernel bodies writes one pure term of the values loaded before it. Here every such term is read
  at an index given by its coordinates: the accumulators' resets are `0`; the degree step adds a row's sum over the
  block's columns; the normalizer is `rsqrt (s + 1)`; the scaled features are the normalizer times the feature; the
  product step adds the row-by-column sum over the block's columns; the last step is the ELU-like selection applied to
  the logits `∑ c, ((acc + xs) * d) * w`. Format changes and casts to the same shape are the identity on extended
  reals, and both matrix products accumulate into zero.
-/
import proofs.«114790_j36223754174749_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic ValueIdx

/-! ## Constants -/

/-- The f32 pattern `0x3F800000` denotes `1`. -/
theorem ofBits_one_f32 : Ideal.ofBits .f32 0x3F800000#32 = 1 :=
  IdealRules.sign_bit.ideal_onePat .f32

/-! ## A column: one value per row -/

section Layout
variable {α : Type}

/-- A vector of `a` values cast to an `a × 1` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast to `a × b` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum, a matrix product into zero, and the selection at one element -/

/-- The sum of an `a × b` block along its columns, at row `p`, is the sum of the row's entries. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ x 0x00000000#32 h hφ hacc (ix1 p) = ∑ j : Fin b, x (ix2 p j) := by
  refine (Ideal.multiReduction_add_single x 0x00000000#32 h hφ hacc (ix1 p)).trans ?_
  refine Finset.sum_congr rfl fun j _ => congrArg x ?_
  funext ax
  match ax with
  | ⟨0, _⟩ => rfl
  | ⟨1, _⟩ => rfl

/-- The product of an `m × k` by a `k × n` matrix accumulated into zero, at `(a, b)`, is the sum over the contracted
    coordinate of the products of the entries. `w` is the record's well-formedness. -/
theorem matmul_zero_ix2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The selection `l > 0 ? l : exp l - 1`, at one element, is the `if` on `0 < l`. -/
theorem selectExp_apply {s : Shape} (L : FVec Ideal s .f32) (i : s.Idx) :
    select (cmpf .ogt L (broadcast s (Scalar.ofBits (F := Ideal) .f32 0x00000000#32))) L
        (subf (exp L) (broadcast s (Scalar.ofBits (F := Ideal) .f32 0x3F800000#32))) i
      = if 0 < L i then L i else Ideal.exp (L i) - 1 := by
  show Scalar.select (Ideal.cmp .ogt (L i) (Ideal.ofBits .f32 0x00000000#32)) (L i)
      (Ideal.exp (L i) - Ideal.ofBits .f32 0x3F800000#32) = _
  rw [Ideal.ofBits_zero_f32, ofBits_one_f32]
  unfold Scalar.select Ideal.cmp
  by_cases h : 0 < L i
  · simp [h]
  · simp [h]

/-! ## The degree kernel -/

/-- The reset of the degree accumulator is `0` everywhere. -/
theorem pay1_0_apply (p : Fin 1024) : k0_pay1 (F := Ideal) (ix2 p (0 : Fin 1)) = 0 := by
  unfold k0_pay1
  rw [shapeCast_self]
  exact Ideal.ofBits_zero_f32

/-- A degree step adds, to the accumulator at row `p`, the sum of the block's row `p`. -/
theorem pay2_0_apply (s : Vec Ideal S1024x1 .f32) (a : Vec Ideal S1024x2048 .f32) (p : Fin 1024) :
    k0_pay2 s a (ix2 p (0 : Fin 1)) = s (ix2 p 0) + ∑ j : Fin 2048, a (ix2 p j) := by
  unfold k0_pay2
  rw [shapeCast_self]
  refine congrArg (s (ix2 p 0) + ·) ?_
  refine (shapeCast_a_a1_apply _ _ p 0).trans ?_
  exact rowSum_apply a _ _ _ p

/-- The normalizer at row `p` is the inverse square root of the accumulated degree plus the identity's `1`. -/
theorem pay3_0_apply (s : Vec Ideal S1024x1 .f32) (p : Fin 1024) : k0_pay3 s (ix2 p (0 : Fin 1)) = Ideal.rsqrt (s (ix2 p 0) + 1) := by
  unfold k0_pay3
  show Ideal.rsqrt (s (ix2 p 0) + Ideal.ofBits .f32 0x3F800000#32) = _
  rw [ofBits_one_f32]

/-- The scaled feature at `(p, q)` is the row's normalizer times the feature. -/
theorem pay4_0_apply (s : Vec Ideal S1024x1 .f32) (xb : Vec Ideal S1024x512 .f32) (p : Fin 1024) (q : Fin 512) :
    k0_pay4 s xb (ix2 p q) = Ideal.rsqrt (s (ix2 p 0) + 1) * xb (ix2 p q) := by
  unfold k0_pay4
  refine congrArg (· * xb (ix2 p q)) ?_
  exact (broadcastTo_a1_ab_apply _ _ p q).trans (pay3_0_apply s p)

/-! ## The aggregation kernel -/

/-- The reset of the product accumulator is `0` everywhere. -/
theorem pay1_1_apply (p : Fin 1024) (q : Fin 512) : k1_pay1 (F := Ideal) (ix2 p q) = 0 := by
  unfold k1_pay1
  rw [shapeCast_self]
  exact Ideal.ofBits_zero_f32

/-- A product step adds, to the accumulator at `(p, q)`, the block's row `p` times the features' column `q`. -/
theorem pay2_1_apply (xc : Vec Ideal S1024x512 .bf16) (a : Vec Ideal S1024x1024 .f32) (acc : Vec Ideal S1024x512 .f32) (p : Fin 1024) (q : Fin 512) :
    k1_pay2 xc a acc (ix2 p q) = acc (ix2 p q) + ∑ j : Fin 1024, a (ix2 p j) * xc (ix2 j q) := by
  unfold k1_pay2
  rw [shapeCast_self, shapeCast_self]
  refine congrArg (acc (ix2 p q) + ·) ?_
  exact matmul_zero_ix2_apply _ none _ xc p q

/-- The last step: the logits `∑ c, ((acc + xs) * d) * w` at `(p, o)`, kept where positive and replaced by `exp l - 1` elsewhere. -/
theorem pay3_1_apply (xr : Vec Ideal S1024x512 .bf16) (acc : Vec Ideal S1024x512 .f32) (d : Vec Ideal S1024x1 .f32) (wb : Vec Ideal S512x512 .bf16) (p : Fin 1024) (o : Fin 512) :
    k1_pay3 xr acc d wb (ix2 p o)
      = (if 0 < ∑ c : Fin 512, ((acc (ix2 p c) + xr (ix2 p c)) * d (ix2 p 0)) * wb (ix2 c o)
         then ∑ c : Fin 512, ((acc (ix2 p c) + xr (ix2 p c)) * d (ix2 p 0)) * wb (ix2 c o)
         else Ideal.exp (∑ c : Fin 512, ((acc (ix2 p c) + xr (ix2 p c)) * d (ix2 p 0)) * wb (ix2 c o)) - 1) := by
  have hl : matmul (φ₁ := .bf16) (φ₂ := .bf16) dot_S1024x512_S512x512_S1024x512_1_0_0_1_n_n none
        (truncf .bf16 (mulf (addf acc (extf .f32 (xr : FVec Ideal S1024x512 .bf16) bitsLt_bf16_f32))
          (broadcastTo S1024x512 d broadcasts_S1024x1_S1024x512)) bitsLt_bf16_f32 : FVec Ideal S1024x512 .bf16)
        (wb : FVec Ideal S512x512 .bf16) (constant (F := Ideal) S1024x512 .f32 0x00000000#32) (ix2 p o)
      = ∑ c : Fin 512, ((acc (ix2 p c) + xr (ix2 p c)) * d (ix2 p 0)) * wb (ix2 c o) := by
    refine (matmul_zero_ix2_apply (φ₁ := .bf16) (φ₂ := .bf16) _ none _ wb p o).trans ?_
    refine Finset.sum_congr rfl fun c _ => ?_
    refine congrArg (fun z => ((acc (ix2 p c) + xr (ix2 p c)) * z) * wb (ix2 c o)) ?_
    exact broadcastTo_a1_ab_apply d _ p c
  have key : ∀ (M : FVec Ideal S1024x512 .f32) (l : EReal), M (ix2 p o) = l →
      select (cmpf .ogt M (broadcast S1024x512 (Scalar.ofBits (F := Ideal) .f32 0x00000000#32))) M
          (subf (exp M) (broadcast S1024x512 (Scalar.ofBits (F := Ideal) .f32 0x3F800000#32))) (ix2 p o)
        = if 0 < l then l else Ideal.exp l - 1 := fun M l hM => by rw [selectExp_apply, hM]
  unfold k1_pay3
  rw [shapeCast_self, shapeCast_self, shapeCast_self]
  exact key _ _ hl

end Cert.KernelIdeal.Hand

end
-- ==== Proof.Spec.lean ====
/-
  The mathematics of the claim, program-free: what the kernel computes and what the reference computes, each as one
  function of the three argument arrays over the extended reals, index by index.

  Notation: `adj p j` (8192 × 8192), `x j c` (8192 × 512), `w c o` (512 × 512).

  The kernel accumulates: a row's degree in four column blocks of 2048 (`degK`), `dK p = rsqrt (degK p + 1)`, the scaled
  features `xsK p c = dK p * x p c`; then the product `adj · xs` in eight column blocks of 1024 (`accK`), and
  `outK p o = elu' (∑ c, ((accK p c + xsK p c) * dK p) * w c o)` with `elu' l = if 0 < l then l else exp l - 1`.

  The reference: `A = adj + I`, `degR p = 0 + ∑ j, A p j`, `dR = rsqrt degR`, `Â p j = (A p j * dR p) * dR j`,
  `outR p o = elu (∑ c, (∑ j, Â p j * x j c) * w c o)` with jax's `elu l = if 0 < l then l else 1 * (exp (if 0 < l then 0 else l) - 1)`.
-/
import Idealize.ShloMosaic.PureOps.Ideal

noncomputable section

namespace Cert.Spec

open Idealize.ShloMosaic

/-- Column `j` of the `k`-th block of `B` columns (reduced modulo the row length, so that it is total in `k`). -/
def col (B : ℕ) (k : ℕ) (j : Fin B) : Fin 8192 := ⟨(B * k + j.val) % 8192, Nat.mod_lt _ (by norm_num)⟩

/-- Left-nested partial sums `((0 + f 0) + f 1) + … + f k`: what an accumulator zeroed at the first step holds after step `k`. -/
def part (f : ℕ → EReal) : ℕ → EReal
  | 0 => 0 + f 0
  | k + 1 => part f k + f (k + 1)

variable (adj : Fin 8192 → Fin 8192 → EReal) (x : Fin 8192 → Fin 512 → EReal) (w : Fin 512 → Fin 512 → EReal)

/-! ## The kernel's side -/

/-- The sum of row `p` of `adj` over the `k`-th block of 2048 columns. -/
def rowBlk (p : Fin 8192) (k : ℕ) : EReal := ∑ j : Fin 2048, adj p (col 2048 k j)
/-- The degree accumulator after its four steps. -/
def degK (p : Fin 8192) : EReal := part (rowBlk adj p) 3
/-- The kernel's inverse square root of the degree (the identity's `1` added at the end). -/
def dK (p : Fin 8192) : EReal := Ideal.rsqrt (degK adj p + 1)
/-- The scaled features. -/
def xsK (p : Fin 8192) (c : Fin 512) : EReal := dK adj p * x p c
/-- The contribution of the `k`-th block of 1024 columns to `(adj · xs) p c`. -/
def mmBlk (p : Fin 8192) (c : Fin 512) (k : ℕ) : EReal := ∑ j : Fin 1024, adj p (col 1024 k j) * xsK adj x (col 1024 k j) c
/-- The product accumulator after its eight steps. -/
def accK (p : Fin 8192) (c : Fin 512) : EReal := part (mmBlk adj x p c) 7
/-- The normalized aggregate: the identity's term added, the row scale applied. -/
def mmK (p : Fin 8192) (c : Fin 512) : EReal := (accK adj x p c + xsK adj x p c) * dK adj p
/-- The logits. -/
def logitK (p : Fin 8192) (o : Fin 512) : EReal := ∑ c : Fin 512, mmK adj x p c * w c o
/-- The kernel's result. -/
def outK (p : Fin 8192) (o : Fin 512) : EReal :=
  if 0 < logitK adj x w p o then logitK adj x w p o else Ideal.exp (logitK adj x w p o) - 1

/-! ## The reference's side -/

/-- `adj + I`. -/
def A (p j : Fin 8192) : EReal := adj p j + (if p = j then 1 else 0)
def degR (p : Fin 8192) : EReal := 0 + ∑ j : Fin 8192, A adj p j
def dR (p : Fin 8192) : EReal := Ideal.rsqrt (degR adj p)
/-- The symmetrically normalized adjacency, in the reference's order of the two scalings. -/
def Ahat (p j : Fin 8192) : EReal := (A adj p j * dR adj p) * dR adj j
def mmR (p : Fin 8192) (c : Fin 512) : EReal := ∑ j : Fin 8192, Ahat adj p j * x j c
def logitR (p : Fin 8192) (o : Fin 512) : EReal := ∑ c : Fin 512, mmR adj x p c * w c o
/-- jax's `elu`: the exponential is applied to `0` where the branch is not taken. -/
def outR (p : Fin 8192) (o : Fin 512) : EReal :=
  if 0 < logitR adj x w p o then logitR adj x w p o
  else 1 * (Ideal.exp (if 0 < logitR adj x w p o then 0 else logitR adj x w p o) - 1)

/-! ## The kernel's second stage over ANY scaled features and row scales

The second kernel reads the scaled features `xs` and the row scales `d` as arrays; what it computes of them, before
they are known to be `xsK` and `dK`. -/

section General
variable (xs : Fin 8192 → Fin 512 → EReal) (d : Fin 8192 → EReal)

def mmBlkG (p : Fin 8192) (c : Fin 512) (k : ℕ) : EReal := ∑ j : Fin 1024, adj p (col 1024 k j) * xs (col 1024 k j) c
def accG (p : Fin 8192) (c : Fin 512) : EReal := part (mmBlkG adj xs p c) 7
def logitG (p : Fin 8192) (o : Fin 512) : EReal := ∑ c : Fin 512, ((accG adj xs p c + xs p c) * d p) * w c o
def outG (p : Fin 8192) (o : Fin 512) : EReal :=
  if 0 < logitG adj w xs d p o then logitG adj w xs d p o else Ideal.exp (logitG adj w xs d p o) - 1

end General

/-- The kernel's result is its second stage at its first stage's outputs. -/
theorem outK_eq_outG : outK adj x w = outG adj w (xsK adj x) (dK adj) := rfl

end Cert.Spec

end
-- ==== Proof.KI.Value0.lean ====
/-
  What the first kernel leaves in its two result arrays, over the extended reals, for any contents `V` of the arrays it
  is entered with: the carried accumulator after the step at column block `k` of row block `i` holds, at row `r`, the
  left-nested partial sum of the block sums of row `1024 i + r` of `adj` up to block `k`; so the step at the last
  column block stores `rsqrt (degree + 1)` and that scale times the features' row; the row blocks tile both arrays.
-/
import proofs.«114790_j36223754174749_2_alg».proof.Proof.KI.Region0
import proofs.«114790_j36223754174749_2_alg».proof.Proof.KI.Payloads
import proofs.«114790_j36223754174749_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The array the first window reads (`adj`) as a function of a row and a column. -/
abbrev adjOf (c : Dev nD) : Fin 8192 → Fin 8192 → EReal := fun p j => V c main_arg1 (ix2 p j)
/-- The array the second window reads (the features) as a function of a row and a channel. -/
abbrev xOf (c : Dev nD) : Fin 8192 → Fin 512 → EReal := fun p q => V c main_arg0 (ix2 p q)

/-- The windows' block indices at a point: row block `t / 4`, column block `t % 4` — decided over the grid. -/
theorem idx0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

theorem N0_eq : cfg0.N = 32 := N_0
theorem tlt0 (t : Fin cfg0.N) : t.val < 32 := lt_of_lt_of_eq t.isLt N_0
theorem nlt0 {n : ℕ} (h : n < cfg0.N) : n < 32 := lt_of_lt_of_eq h N_0

/-- The `adj` block at point `t` reads `adj` at row `1024 (t / 4) + p`, column `2048 (t % 4) + j`. -/
theorem iblk0_0_apply (c : Dev nD) (t : Fin cfg0.N) (p : Fin 1024) (j : Fin 2048) :
    (iblk0 V c 0 t : Vec Ideal S1024x2048 .f32) (ix2 p j)
      = adjOf V c ⟨1024 * (t.val / 4) + p.val, by have := tlt0 t; omega⟩ (Spec.col 2048 (t.val % 4) j) := by
  obtain ⟨e0, e1, -⟩ := idx0 t
  unfold iblk0
  rw [View.read_apply]
  show V c main_arg1 _ = V c main_arg1 _
  refine congrArg _ (funext fun a => Fin.ext ?_)
  match a with
  | ⟨0, _⟩ => show win0_0.index t (0 : Fin 2) * 1024 + 1 * p.val = 1024 * (t.val / 4) + p.val; omega
  | ⟨1, _⟩ =>
    show win0_0.index t (1 : Fin 2) * 2048 + 1 * j.val = (2048 * (t.val % 4) + j.val) % 8192
    have := j.isLt; omega

/-- The features' block at point `t` reads them at row `1024 (t / 4) + p`. -/
theorem iblk0_1_apply (c : Dev nD) (t : Fin cfg0.N) (p : Fin 1024) (q : Fin 512) :
    (iblk0 V c 1 t : Vec Ideal S1024x512 .f32) (ix2 p q)
      = xOf V c ⟨1024 * (t.val / 4) + p.val, by have := tlt0 t; omega⟩ q := by
  obtain ⟨-, -, e2, e3, -⟩ := idx0 t
  unfold iblk0
  rw [View.read_apply]
  show V c main_arg0 _ = V c main_arg0 _
  refine congrArg _ (funext fun a => Fin.ext ?_)
  match a with
  | ⟨0, _⟩ => show win0_1.index t (0 : Fin 2) * 1024 + 1 * p.val = 1024 * (t.val / 4) + p.val; omega
  | ⟨1, _⟩ => show win0_1.index t (1 : Fin 2) * 512 + 1 * q.val = q.val; omega

/-- THE ACCUMULATOR, closed: after the step at position `n` it holds at row `p` the left-nested partial sum, up to column
    block `n % 4`, of the block sums of row `1024 (n / 4) + p` — by induction on the position. -/
theorem scr0_eq (c : Dev nD) : ∀ (n : ℕ) (h : n < cfg0.N) (p : Fin 1024),
    (outsAt0 V c n h).2.2 (ix2 p (0 : Fin 1))
      = Spec.part (Spec.rowBlk (adjOf V c) ⟨1024 * (n / 4) + p.val, by have := nlt0 h; omega⟩) (n % 4)
  | 0, h, p => by
    rw [scr0_first V c ⟨0, h⟩ rfl, pay2_0_apply, pay1_0_apply]
    show (0 : EReal) + _ = (0 : EReal) + Spec.rowBlk _ _ 0
    refine congrArg _ (Finset.sum_congr rfl fun j _ => ?_)
    exact iblk0_0_apply V c ⟨0, h⟩ p j
  | n + 1, h, p => by
    by_cases h0 : (n + 1) % 4 = 0
    · rw [scr0_first V c ⟨n + 1, h⟩ h0, pay2_0_apply, pay1_0_apply, h0]
      show (0 : EReal) + _ = (0 : EReal) + Spec.rowBlk _ _ 0
      refine congrArg _ (Finset.sum_congr rfl fun j _ => ?_)
      have := iblk0_0_apply V c ⟨n + 1, h⟩ p j
      rw [show (⟨n + 1, h⟩ : Fin cfg0.N).val % 4 = 0 from h0] at this
      exact this
    · rw [scr0_next V c ⟨n + 1, h⟩ h0, pay2_0_apply]
      have ih := scr0_eq c n (Nat.lt_of_succ_lt h) p
      have hk : (n + 1) % 4 = n % 4 + 1 := by omega
      have hi : (n + 1) / 4 = n / 4 := by omega
      show (outsAt0 V c (n + 1 - 1) _).2.2 (ix2 p 0) + _ = _
      simp only [Nat.add_sub_cancel]
      rw [ih, hk]
      show _ = Spec.part _ (n % 4) + Spec.rowBlk _ _ (n % 4 + 1)
      have hrow : (⟨1024 * ((n + 1) / 4) + p.val, by have := nlt0 h; omega⟩ : Fin 8192) = ⟨1024 * (n / 4) + p.val, by have := nlt0 h; omega⟩ :=
        Fin.ext (by show 1024 * ((n + 1) / 4) + p.val = 1024 * (n / 4) + p.val; rw [hi])
      rw [hrow]
      refine congrArg _ (Finset.sum_congr rfl fun j _ => ?_)
      have := iblk0_0_apply V c ⟨n + 1, h⟩ p j
      rw [show (⟨n + 1, h⟩ : Fin cfg0.N).val % 4 = n % 4 + 1 from hk] at this
      rw [this]
      exact congrArg (fun r => adjOf V c r _) (Fin.ext (by show 1024 * ((n + 1) / 4) + p.val = 1024 * (n / 4) + p.val; rw [hi]))

/-! ## The two result arrays -/

/-- The row scales the kernel writes: `rsqrt (degree + 1)` at every row. -/
abbrev disG (c : Dev nD) : S8192x1.Idx → EReal := fun i => Spec.dK (adjOf V c) ⟨(i 0).val, (i 0).isLt⟩
/-- The scaled features it writes. -/
abbrev xsG (c : Dev nD) : S8192x512.Idx → EReal := fun i => Spec.xsK (adjOf V c) (xOf V c) ⟨(i 0).val, (i 0).isLt⟩ ⟨(i 1).val, (i 1).isLt⟩

/-- A point that writes back is the last of its row block's four. -/
theorem flush0_2_last (t : Fin cfg0.N) (hf : (cfg0.win 2).flush t = true) : t.val % 4 = 3 := (flush0_2 t).mp hf
theorem flush0_3_last (t : Fin cfg0.N) (hf : (cfg0.win 3).flush t = true) : t.val % 4 = 3 := (flush0_3 t).mp hf

/-- WHAT A WRITING POINT WRITES BACK to the row scales is its row block of `disG`. -/
theorem flushed0_2_eq (c : Dev nD) (t : Fin cfg0.N) (hf : (cfg0.win 2).flush t = true) :
    (dat0 V c).flushed 2 t = ((cfg0.win 2).blk t).view.read (Elt Ideal) (disG V c) := by
  have h3 := flush0_2_last t hf
  obtain ⟨-, -, -, -, e4, e5, -⟩ := idx0 t
  show (cfg0.win 2).cut (grid0.coords t) ((dat0 V c).after 2 t) = _
  rw [after0_2, out0_2_last V c t h3]
  funext y
  obtain ⟨p, q, rfl⟩ : ∃ (p : Fin 1024) (q : Fin 1), y = ix2 p q := ⟨y 0, y 1, eq_ix2 y⟩
  obtain rfl : q = 0 := Subsingleton.elim _ _
  rw [View.read_apply]
  show k0_pay3 (F := Ideal) _ (ix2 p (0 : Fin 1)) = Spec.dK (adjOf V c) _
  rw [pay3_0_apply, scr0_eq V c t.val t.isLt p, h3]
  show Ideal.rsqrt (Spec.degK (adjOf V c) _ + 1) = Ideal.rsqrt (Spec.degK (adjOf V c) _ + 1)
  refine congrArg (fun r => Ideal.rsqrt (Spec.degK (adjOf V c) r + 1)) (Fin.ext ?_)
  show 1024 * (t.val / 4) + p.val = win0_2.index t (0 : Fin 2) * 1024 + 1 * p.val
  omega

/-- WHAT A WRITING POINT WRITES BACK to the scaled features is its row block of `xsG`. -/
theorem flushed0_3_eq (c : Dev nD) (t : Fin cfg0.N) (hf : (cfg0.win 3).flush t = true) :
    (dat0 V c).flushed 3 t = ((cfg0.win 3).blk t).view.read (Elt Ideal) (xsG V c) := by
  have h3 := flush0_3_last t hf
  obtain ⟨-, -, -, -, -, -, e6, e7⟩ := idx0 t
  show (cfg0.win 3).cut (grid0.coords t) ((dat0 V c).after 3 t) = _
  rw [after0_3, out0_3_last V c t h3]
  funext y
  obtain ⟨p, q, rfl⟩ : ∃ (p : Fin 1024) (q : Fin 512), y = ix2 p q := ⟨y 0, y 1, eq_ix2 y⟩
  rw [View.read_apply]
  show k0_pay4 (F := Ideal) _ _ (ix2 p q) = Spec.xsK (adjOf V c) (xOf V c) _ _
  rw [pay4_0_apply, scr0_eq V c t.val t.isLt p, h3, iblk0_1_apply]
  have hr : (⟨1024 * (t.val / 4) + p.val, by have := tlt0 t; omega⟩ : Fin 8192)
      = ⟨((((cfg0.win 3).blk t).view.emb (ix2 p q)) 0).val, ((((cfg0.win 3).blk t).view.emb (ix2 p q)) 0).isLt⟩ :=
    Fin.ext (by show 1024 * (t.val / 4) + p.val = win0_3.index t (0 : Fin 2) * 1024 + 1 * p.val; omega)
  have hq : q = ⟨((((cfg0.win 3).blk t).view.emb (ix2 p q)) 1).val, ((((cfg0.win 3).blk t).view.emb (ix2 p q)) 1).isLt⟩ :=
    Fin.ext (by show q.val = win0_3.index t (1 : Fin 2) * 512 + 1 * q.val; omega)
  show Ideal.rsqrt (Spec.degK (adjOf V c) _ + 1) * xOf V c _ q = Spec.dK (adjOf V c) _ * xOf V c _ _
  rw [← hr, ← hq]
  rfl

/-- An index of the row scales is in point `t`'s block iff its row is in the block's range. -/
theorem mem_blk0_2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_0).slice (win0_2.rect t)).set ↔ _
  rw [View.set_slice_whole, Rect.mem_set_unit]
  exact Iff.rfl
theorem mem_blk0_3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0_1).slice (win0_3.rect t)).set ↔ _
  rw [View.set_slice_whole, Rect.mem_set_unit]
  exact Iff.rfl

/-- The writing point of the row block that holds row `r`: the last column step of block `r / 1024`. -/
def lastOf0 (r : ℕ) (hr : r < 8192) : Fin cfg0.N := ⟨4 * (r / 1024) + 3, by show 4 * (r / 1024) + 3 < cfg0.N; rw [N0_eq]; omega⟩

/-- THE ROW SCALES after the first kernel. -/
theorem final0_2 (c : Dev nD) : (dat0 V c).arrAt 2 cfg0.N = disG V c :=
  (dat0 V c).arrAt_eq_of_cover 2 (disG V c) (flushed0_2_eq V c) fun i => by
    have hi0 : (i 0).val < 8192 := (i 0).isLt
    have hi1 : (i 1).val < 1 := (i 1).isLt
    refine ⟨lastOf0 (i 0).val hi0, (flush0_2 _).mpr (by show (4 * ((i 0).val / 1024) + 3) % 4 = 3; omega), ?_⟩
    rw [mem_blk0_2]
    obtain ⟨-, -, -, -, e4, e5, -⟩ := idx0 (lastOf0 (i 0).val hi0)
    have e4' : win0_2.index (lastOf0 (i 0).val hi0) (0 : Fin 2) = (i 0).val / 1024 := by
      rw [e4]; show (4 * ((i 0).val / 1024) + 3) / 4 = _; omega
    intro a
    match a with
    | ⟨0, _⟩ => show win0_2.index _ (0 : Fin 2) * 1024 ≤ (i 0).val ∧ (i 0).val < win0_2.index _ (0 : Fin 2) * 1024 + 1024; rw [e4']; omega
    | ⟨1, _⟩ => show win0_2.index _ (1 : Fin 2) * 1 ≤ (i 1).val ∧ (i 1).val < win0_2.index _ (1 : Fin 2) * 1 + 1; rw [e5]; omega

/-- THE SCALED FEATURES after the first kernel. -/
theorem final0_3 (c : Dev nD) : (dat0 V c).arrAt 3 cfg0.N = xsG V c :=
  (dat0 V c).arrAt_eq_of_cover 3 (xsG V c) (flushed0_3_eq V c) fun i => by
    have hi0 : (i 0).val < 8192 := (i 0).isLt
    have hi1 : (i 1).val < 512 := (i 1).isLt
    refine ⟨lastOf0 (i 0).val hi0, (flush0_3 _).mpr (by show (4 * ((i 0).val / 1024) + 3) % 4 = 3; omega), ?_⟩
    rw [mem_blk0_3]
    obtain ⟨-, -, -, -, -, -, e6, e7⟩ := idx0 (lastOf0 (i 0).val hi0)
    have e6' : win0_3.index (lastOf0 (i 0).val hi0) (0 : Fin 2) = (i 0).val / 1024 := by
      rw [e6]; show (4 * ((i 0).val / 1024) + 3) / 4 = _; omega
    intro a
    match a with
    | ⟨0, _⟩ => show win0_3.index _ (0 : Fin 2) * 1024 ≤ (i 0).val ∧ (i 0).val < win0_3.index _ (0 : Fin 2) * 1024 + 1024; rw [e6']; omega
    | ⟨1, _⟩ => show win0_3.index _ (1 : Fin 2) * 512 ≤ (i 1).val ∧ (i 1).val < win0_3.index _ (1 : Fin 2) * 512 + 512; rw [e7]; omega

end Cert.KernelIdeal.Hand

end
-- ==== Proof.KI.Value1.lean ====
/-
  What the second kernel leaves in the result array, over the extended reals, for any contents `V` of the arrays it is
  entered with (`adj`, the scaled features `xs`, the row scales `d`, the weights `w`): the carried accumulator after the
  step at column block `k` of row block `i` holds, at `(r, c)`, the left-nested partial sum up to block `k` of the block
  products `∑ j, adj (1024 i + r) j · xs j c`; the step at the last column block adds the row of `xs`, scales by `d`,
  contracts with `w` and applies the exponential-linear selection; the row blocks tile the result.
-/
import proofs.«114790_j36223754174749_2_alg».proof.Proof.KI.Region1
import proofs.«114790_j36223754174749_2_alg».proof.Proof.KI.Payloads
import proofs.«114790_j36223754174749_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The four arrays the second kernel reads, as functions of their coordinates. -/
abbrev adjOf1 (c : Dev nD) : Fin 8192 → Fin 8192 → EReal := fun p j => V c main_arg1 (ix2 p j)
abbrev xsOf (c : Dev nD) : Fin 8192 → Fin 512 → EReal := fun p q => V c main_v0_1 (ix2 p q)
abbrev disOf (c : Dev nD) : Fin 8192 → EReal := fun p => V c main_v0_0 (ix2 p (0 : Fin 1))
abbrev wOf (c : Dev nD) : Fin 512 → Fin 512 → EReal := fun a o => V c main_v1 (ix2 a o)

/-- The windows' block indices and the body's two dynamic row offsets at a point: row block `t / 8`, column block
    `t % 8` — decided over the grid. -/
theorem idx1 : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0
    ∧ k1_off1 (grid1.coords t) (0 : Fin 2) = 1024 * (t.val % 8) ∧ k1_off1 (grid1.coords t) (1 : Fin 2) = 0
    ∧ k1_off2 (grid1.coords t) (0 : Fin 2) = 1024 * (t.val / 8) ∧ k1_off2 (grid1.coords t) (1 : Fin 2) = 0 :=
  (by decide +kernel : ∀ t : Fin grid1.N, _)

/-- The last reduction step's condition holds exactly at the points `≡ 7 (mod 8)`. -/
theorem hlast1 : ∀ t : Fin cfg1.N, k1_cond2 (grid1.coords t) = 1#1 ↔ t.val % 8 = 7 :=
  (by decide +kernel : ∀ t : Fin grid1.N, k1_cond2 (grid1.coords t) = 1#1 ↔ t.val % 8 = 7)

theorem N1_eq : cfg1.N = 64 := N_1
theorem tlt1 (t : Fin cfg1.N) : t.val < 64 := lt_of_lt_of_eq t.isLt N_1
theorem nlt1 {n : ℕ} (h : n < cfg1.N) : n < 64 := lt_of_lt_of_eq h N_1

/-- The `adj` block at point `t` reads `adj` at row `1024 (t / 8) + p`, column `1024 (t % 8) + j`. -/
theorem iblk1_0_apply (c : Dev nD) (t : Fin cfg1.N) (p : Fin 1024) (j : Fin 1024) :
    (iblk1 V c 0 t : Vec Ideal S1024x1024 .f32) (ix2 p j)
      = adjOf1 V c ⟨1024 * (t.val / 8) + p.val, by have := tlt1 t; omega⟩ (Spec.col 1024 (t.val % 8) j) := by
  obtain ⟨e0, e1, -⟩ := idx1 t
  unfold iblk1
  rw [View.read_apply]
  show V c main_arg1 _ = V c main_arg1 _
  refine congrArg _ (funext fun a => Fin.ext ?_)
  match a with
  | ⟨0, _⟩ => show win1_0.index t (0 : Fin 2) * 1024 + 1 * p.val = 1024 * (t.val / 8) + p.val; omega
  | ⟨1, _⟩ =>
    show win1_0.index t (1 : Fin 2) * 1024 + 1 * j.val = (1024 * (t.val % 8) + j.val) % 8192
    have := j.isLt; omega

/-- The resident `xs` window holds the whole array; the body's load at the step's row offset reads rows
    `1024 (t % 8) + j`. -/
theorem ld_col_apply (c : Dev nD) (t : Fin cfg1.N) (j : Fin 1024) (q : Fin 512) :
    (View.ld (iblk1 V c 1 t) (rCol1 (grid1.coords t)) : Vec Ideal S1024x512 .bf16) (ix2 j q) = xsOf V c (Spec.col 1024 (t.val % 8) j) q := by
  obtain ⟨-, -, e2, e3, -, -, -, -, -, -, o0, o1, -⟩ := idx1 t
  show iblk1 V c 1 t ((rCol1 (grid1.coords t)).idx (ix2 j q)) = _
  unfold iblk1
  rw [View.read_apply]
  show V c main_v0_1 _ = V c main_v0_1 _
  refine congrArg _ (funext fun a => Fin.ext ?_)
  match a with
  | ⟨0, _⟩ =>
    show win1_1.index t (0 : Fin 2) * 8192 + 1 * (k1_off1 (grid1.coords t) (0 : Fin 2) + 1 * j.val) = (1024 * (t.val % 8) + j.val) % 8192
    have := j.isLt; omega
  | ⟨1, _⟩ =>
    show win1_1.index t (1 : Fin 2) * 512 + 1 * (k1_off1 (grid1.coords t) (1 : Fin 2) + 1 * q.val) = q.val
    omega

/-- Its load at the row block's own offset (the identity's term) reads rows `1024 (t / 8) + p`. -/
theorem ld_row_apply (c : Dev nD) (t : Fin cfg1.N) (hc : k1_cond2 (grid1.coords t) = 1#1) (p : Fin 1024) (q : Fin 512) :
    (View.ld (iblk1 V c 1 t) (rRow1 (grid1.coords t) hc) : Vec Ideal S1024x512 .bf16) (ix2 p q)
      = xsOf V c ⟨1024 * (t.val / 8) + p.val, by have := tlt1 t; omega⟩ q := by
  obtain ⟨-, -, e2, e3, -, -, -, -, -, -, -, -, o2, o3⟩ := idx1 t
  show iblk1 V c 1 t ((rRow1 (grid1.coords t) hc).idx (ix2 p q)) = _
  unfold iblk1
  rw [View.read_apply]
  show V c main_v0_1 _ = V c main_v0_1 _
  refine congrArg _ (funext fun a => Fin.ext ?_)
  match a with
  | ⟨0, _⟩ =>
    show win1_1.index t (0 : Fin 2) * 8192 + 1 * (k1_off2 (grid1.coords t) (0 : Fin 2) + 1 * p.val) = 1024 * (t.val / 8) + p.val
    omega
  | ⟨1, _⟩ =>
    show win1_1.index t (1 : Fin 2) * 512 + 1 * (k1_off2 (grid1.coords t) (1 : Fin 2) + 1 * q.val) = q.val
    omega

/-- The row scales' block at point `t` reads them at row `1024 (t / 8) + p`. -/
theorem iblk1_2_apply (c : Dev nD) (t : Fin cfg1.N) (p : Fin 1024) :
    (iblk1 V c 2 t : Vec Ideal S1024x1 .f32) (ix2 p (0 : Fin 1)) = disOf V c ⟨1024 * (t.val / 8) + p.val, by have := tlt1 t; omega⟩ := by
  obtain ⟨-, -, -, -, e4, e5, -⟩ := idx1 t
  unfold iblk1
  rw [View.read_apply]
  show V c main_v0_0 _ = V c main_v0_0 _
  refine congrArg _ (funext fun a => Fin.ext ?_)
  match a with
  | ⟨0, _⟩ => show win1_2.index t (0 : Fin 2) * 1024 + 1 * p.val = 1024 * (t.val / 8) + p.val; omega
  | ⟨1, _⟩ => show win1_2.index t (1 : Fin 2) * 1 + 1 * 0 = 0; omega

/-- The weights' window holds the whole array. -/
theorem iblk1_3_apply (c : Dev nD) (t : Fin cfg1.N) (a : Fin 512) (o : Fin 512) :
    (iblk1 V c 3 t : Vec Ideal S512x512 .bf16) (ix2 a o) = wOf V c a o := by
  obtain ⟨-, -, -, -, -, -, e6, e7, -⟩ := idx1 t
  unfold iblk1
  rw [View.read_apply]
  show V c main_v1 _ = V c main_v1 _
  refine congrArg _ (funext fun b => Fin.ext ?_)
  match b with
  | ⟨0, _⟩ => show win1_3.index t (0 : Fin 2) * 512 + 1 * a.val = a.val; omega
  | ⟨1, _⟩ => show win1_3.index t (1 : Fin 2) * 512 + 1 * o.val = o.val; omega

/-- THE ACCUMULATOR, closed: after the step at position `n` it holds at `(p, q)` the left-nested partial sum, up to column
    block `n % 8`, of the block products of row `1024 (n / 8) + p` of `adj` with channel `q` of `xs`. -/
theorem scr1_eq (c : Dev nD) : ∀ (n : ℕ) (h : n < cfg1.N) (p : Fin 1024) (q : Fin 512),
    (outsAt1 V c n h).2 (ix2 p q)
      = Spec.part (Spec.mmBlkG (adjOf1 V c) (xsOf V c) ⟨1024 * (n / 8) + p.val, by have := nlt1 h; omega⟩ q) (n % 8)
  | 0, h, p, q => by
    rw [scr1_first V c ⟨0, h⟩ rfl, pay2_1_apply, pay1_1_apply]
    show (0 : EReal) + _ = (0 : EReal) + Spec.mmBlkG _ _ _ _ 0
    refine congrArg _ (Finset.sum_congr rfl fun j _ => ?_)
    rw [iblk1_0_apply V c ⟨0, h⟩ p j, ld_col_apply V c ⟨0, h⟩ j q]
    rfl
  | n + 1, h, p, q => by
    by_cases h0 : (n + 1) % 8 = 0
    · rw [scr1_first V c ⟨n + 1, h⟩ h0, pay2_1_apply, pay1_1_apply, h0]
      show (0 : EReal) + _ = (0 : EReal) + Spec.mmBlkG _ _ _ _ 0
      refine congrArg _ (Finset.sum_congr rfl fun j _ => ?_)
      have e1 := iblk1_0_apply V c ⟨n + 1, h⟩ p j
      have e2 := ld_col_apply V c ⟨n + 1, h⟩ j q
      rw [show (⟨n + 1, h⟩ : Fin cfg1.N).val % 8 = 0 from h0] at e1 e2
      rw [e1, e2]
    · rw [scr1_next V c ⟨n + 1, h⟩ h0, pay2_1_apply]
      have ih := scr1_eq c n (Nat.lt_of_succ_lt h) p q
      have hk : (n + 1) % 8 = n % 8 + 1 := by omega
      have hi : (n + 1) / 8 = n / 8 := by omega
      show (outsAt1 V c (n + 1 - 1) _).2 (ix2 p q) + _ = _
      simp only [Nat.add_sub_cancel]
      rw [ih, hk]
      show _ = Spec.part _ (n % 8) + Spec.mmBlkG _ _ _ _ (n % 8 + 1)
      have hrow : (⟨1024 * ((n + 1) / 8) + p.val, by have := nlt1 h; omega⟩ : Fin 8192) = ⟨1024 * (n / 8) + p.val, by have := nlt1 h; omega⟩ :=
        Fin.ext (by show 1024 * ((n + 1) / 8) + p.val = 1024 * (n / 8) + p.val; rw [hi])
      rw [hrow]
      refine congrArg _ (Finset.sum_congr rfl fun j _ => ?_)
      have e1 := iblk1_0_apply V c ⟨n + 1, h⟩ p j
      have e2 := ld_col_apply V c ⟨n + 1, h⟩ j q
      rw [show (⟨n + 1, h⟩ : Fin cfg1.N).val % 8 = n % 8 + 1 from hk] at e1 e2
      rw [e1, e2]
      exact congrArg (fun r => adjOf1 V c r _ * _) (Fin.ext (by show 1024 * ((n + 1) / 8) + p.val = 1024 * (n / 8) + p.val; rw [hi]))

/-! ## The result array -/

/-- What the second kernel writes: its second stage of the four arrays, at every row and output channel. -/
abbrev outG1 (c : Dev nD) : S8192x512.Idx → EReal := fun i =>
  Spec.outG (adjOf1 V c) (wOf V c) (xsOf V c) (disOf V c) ⟨(i 0).val, (i 0).isLt⟩ ⟨(i 1).val, (i 1).isLt⟩

/-- WHAT A WRITING POINT WRITES BACK is its row block of `outG1`. -/
theorem flushed1_4_eq (c : Dev nD) (t : Fin cfg1.N) (hf : (cfg1.win 4).flush t = true) :
    (dat1 V c).flushed 4 t = ((cfg1.win 4).blk t).view.read (Elt Ideal) (outG1 V c) := by
  have h7 : t.val % 8 = 7 := (flush1_4 t).mp hf
  have hc : k1_cond2 (grid1.coords t) = 1#1 := (hlast1 t).mpr h7
  obtain ⟨-, -, -, -, -, -, -, -, e8, e9, -⟩ := idx1 t
  show (cfg1.win 4).cut (grid1.coords t) ((dat1 V c).after 4 t) = _
  rw [after1_4, out1_last V c t h7 hc]
  funext y
  obtain ⟨p, o, rfl⟩ : ∃ (p : Fin 1024) (o : Fin 512), y = ix2 p o := ⟨y 0, y 1, eq_ix2 y⟩
  rw [View.read_apply]
  show k1_pay3 (F := Ideal) _ _ _ _ (ix2 p o) = Spec.outG (adjOf1 V c) (wOf V c) (xsOf V c) (disOf V c) _ _
  rw [pay3_1_apply]
  have hl : (∑ cc : Fin 512, (((outsAt1 V c t.val t.isLt).2 (ix2 p cc) + (View.ld (iblk1 V c 1 t) (rRow1 (grid1.coords t) hc) : Vec Ideal S1024x512 .bf16) (ix2 p cc))
        * (iblk1 V c 2 t : Vec Ideal S1024x1 .f32) (ix2 p (0 : Fin 1))) * (iblk1 V c 3 t : Vec Ideal S512x512 .bf16) (ix2 cc o))
      = Spec.logitG (adjOf1 V c) (wOf V c) (xsOf V c) (disOf V c) ⟨1024 * (t.val / 8) + p.val, by have := tlt1 t; omega⟩ o := by
    unfold Spec.logitG Spec.accG
    refine Finset.sum_congr rfl fun cc _ => ?_
    rw [scr1_eq V c t.val t.isLt p cc, h7, ld_row_apply V c t hc p cc, iblk1_2_apply V c t p, iblk1_3_apply V c t cc o]
  rw [hl]
  have hr : (⟨1024 * (t.val / 8) + p.val, by have := tlt1 t; omega⟩ : Fin 8192)
      = ⟨((((cfg1.win 4).blk t).view.emb (ix2 p o)) 0).val, ((((cfg1.win 4).blk t).view.emb (ix2 p o)) 0).isLt⟩ :=
    Fin.ext (by show 1024 * (t.val / 8) + p.val = win1_4.index t (0 : Fin 2) * 1024 + 1 * p.val; omega)
  have ho : o = ⟨((((cfg1.win 4).blk t).view.emb (ix2 p o)) 1).val, ((((cfg1.win 4).blk t).view.emb (ix2 p o)) 1).isLt⟩ :=
    Fin.ext (by show o.val = win1_4.index t (1 : Fin 2) * 512 + 1 * o.val; omega)
  rw [← hr, ← ho]
  rfl

theorem mem_blk1_4 (t : Fin cfg1.N) (i : S8192x512.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v2).slice (win1_4.rect t)).set ↔ _
  rw [View.set_slice_whole, Rect.mem_set_unit]
  exact Iff.rfl

/-- The writing point of the row block that holds row `r`: the last column step of block `r / 1024`. -/
def lastOf1 (r : ℕ) (hr : r < 8192) : Fin cfg1.N := ⟨8 * (r / 1024) + 7, by show 8 * (r / 1024) + 7 < cfg1.N; rw [N1_eq]; omega⟩

/-- THE RESULT after the second kernel. -/
theorem final1_4 (c : Dev nD) : (dat1 V c).arrAt 4 cfg1.N = outG1 V c :=
  (dat1 V c).arrAt_eq_of_cover 4 (outG1 V c) (flushed1_4_eq V c) fun i => by
    have hi0 : (i 0).val < 8192 := (i 0).isLt
    have hi1 : (i 1).val < 512 := (i 1).isLt
    refine ⟨lastOf1 (i 0).val hi0, (flush1_4 _).mpr (by show (8 * ((i 0).val / 1024) + 7) % 8 = 7; omega), ?_⟩
    rw [mem_blk1_4]
    obtain ⟨-, -, -, -, -, -, -, -, e8, e9, -⟩ := idx1 (lastOf1 (i 0).val hi0)
    have e8' : win1_4.index (lastOf1 (i 0).val hi0) (0 : Fin 2) = (i 0).val / 1024 := by
      rw [e8]; show (8 * ((i 0).val / 1024) + 7) / 8 = _; omega
    intro a
    match a with
    | ⟨0, _⟩ => show win1_4.index _ (0 : Fin 2) * 1024 ≤ (i 0).val ∧ (i 0).val < win1_4.index _ (0 : Fin 2) * 1024 + 1024; rw [e8']; omega
    | ⟨1, _⟩ => show win1_4.index _ (1 : Fin 2) * 512 ≤ (i 1).val ∧ (i 1).val < win1_4.index _ (1 : Fin 2) * 512 + 512; rw [e9]; omega

end Cert.KernelIdeal.Hand

end
-- ==== Proof.Alg.lean ====
/-
  The algebra of the claim: with every entry of the three arrays a real and every reference degree positive, the
  function the kernel computes and the function the reference computes are the same function, index by index.

  The kernel's block-wise accumulations are regroupings of finite sums (an additive commutative monoid needs no
  finiteness for that). Both inverse square roots are taken at the same positive real, so every intermediate value
  is a real; the identity of the two normalized aggregates is then an identity of real polynomials, proved in the
  reals, where multiplication distributes over addition (it does not at the infinities of the extended reals).
-/
import proofs.«114790_j36223754174749_2_alg».proof.Proof.Spec
import Mathlib

noncomputable section

namespace Cert.Spec

open Idealize.ShloMosaic

/-! ## Regrouping -/

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The embedding of the reals carries the indicator of an equality to the indicator. -/
theorem coe_indicator {ι : Type*} [DecidableEq ι] (p j : ι) :
    (if p = j then (1 : EReal) else 0) = ((if p = j then (1 : ℝ) else 0 : ℝ) : EReal) := by
  split_ifs <;> simp

/-- The left-nested partial sums started from zero are the sums over an initial segment. -/
theorem part_eq_sum (f : ℕ → EReal) (k : ℕ) : part f k = ∑ i ∈ Finset.range (k + 1), f i := by
  induction k with
  | zero => simp [part]
  | succ k ih => rw [part, ih]; exact (Finset.sum_range_succ f (k + 1)).symm

/-- The value of `col` inside the row: block `k` of `n` blocks of `B` columns, `n * B = 8192`, starts at column `B * k`. -/
theorem col_val (B n : ℕ) (h : n * B = 8192) (k : Fin n) (j : Fin B) :
    (col B k.val j).val = j.val + B * k.val := by
  have hk : B * k.val + j.val < 8192 := by
    have h1 : B * k.val + j.val < B * (k.val + 1) := by
      rw [Nat.mul_succ]; exact Nat.add_lt_add_left j.isLt _
    have h2 : B * (k.val + 1) ≤ B * n := Nat.mul_le_mul_left _ k.isLt
    calc B * k.val + j.val < B * (k.val + 1) := h1
      _ ≤ B * n := h2
      _ = 8192 := by rw [Nat.mul_comm]; exact h
  show (B * k.val + j.val) % 8192 = j.val + B * k.val
  rw [Nat.mod_eq_of_lt hk, Nat.add_comm]

/-- `n` consecutive blocks of `B` columns, `n * B = 8192`, partition a row: the sum of the block sums is the row's sum. -/
theorem sum_blocks (B n : ℕ) (h : n * B = 8192) (f : Fin 8192 → EReal) :
    ∑ k ∈ Finset.range n, ∑ j : Fin B, f (col B k j) = ∑ j : Fin 8192, f j := by
  rw [← Fin.sum_univ_eq_sum_range (fun k => ∑ j : Fin B, f (col B k j)) n, ← Fintype.sum_prod_type']
  refine Fintype.sum_equiv (finProdFinEquiv.trans (finCongr h)) _ _ ?_
  rintro ⟨k, j⟩
  congr 1
  apply Fin.ext
  rw [col_val B n h k j]
  simp [finProdFinEquiv]

/-! ## Every intermediate value is a real -/

/-- The inverse square root of a positive real is the real `(√r)⁻¹`. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The degree of row `p` of `a + I`, in the reals. -/
def degr (a : Fin 8192 → Fin 8192 → ℝ) (p : Fin 8192) : ℝ := (∑ j, a p j) + 1

/-- The inverse square root of that degree, in the reals. -/
def dr (a : Fin 8192 → Fin 8192 → ℝ) (p : Fin 8192) : ℝ := (Real.sqrt (degr a p))⁻¹

section

variable {adj : Fin 8192 → Fin 8192 → EReal} {x : Fin 8192 → Fin 512 → EReal} (w : Fin 512 → Fin 512 → EReal)
  {a : Fin 8192 → Fin 8192 → ℝ} {xr : Fin 8192 → Fin 512 → ℝ}

/-- The four blocks of 2048 columns partition the row, so the kernel's accumulated degree with the identity's `1`
    added is the degree of `a + I`. -/
theorem degK_add_one (ha : ∀ p j, adj p j = (a p j : EReal)) (p : Fin 8192) :
    degK adj p + 1 = (degr a p : EReal) := by
  have h : ∑ k ∈ Finset.range (3 + 1), rowBlk adj p k = ∑ j, adj p j :=
    sum_blocks 2048 4 (by norm_num) (adj p)
  rw [degK, part_eq_sum, h, degr, EReal.coe_add, coe_sum, EReal.coe_one]
  simp only [ha]

/-- The reference's degree: `∑ j, (a p j + [p = j]) = (∑ j, a p j) + 1`. -/
theorem degR_eq (ha : ∀ p j, adj p j = (a p j : EReal)) (p : Fin 8192) :
    degR adj p = (degr a p : EReal) := by
  rw [degR, zero_add, degr, EReal.coe_add, coe_sum, EReal.coe_one]
  simp only [A, ha, Finset.sum_add_distrib, Finset.sum_ite_eq, Finset.mem_univ, if_true]

/-- The kernel's inverse square root is the real one. -/
theorem dK_eq (ha : ∀ p j, adj p j = (a p j : EReal)) {p : Fin 8192} (hd : 0 < degr a p) :
    dK adj p = (dr a p : EReal) := by
  rw [dK, degK_add_one ha, rsqrt_pos hd, dr]

/-- The reference's inverse square root is the same real. -/
theorem dR_eq (ha : ∀ p j, adj p j = (a p j : EReal)) {p : Fin 8192} (hd : 0 < degr a p) :
    dR adj p = (dr a p : EReal) := by
  rw [dR, degR_eq ha, rsqrt_pos hd, dr]

/-- The scaled features are real. -/
theorem xs_real (ha : ∀ p j, adj p j = (a p j : EReal)) (hx : ∀ j c, x j c = (xr j c : EReal))
    (hd : ∀ p, 0 < degr a p) (p : Fin 8192) (c : Fin 512) :
    xsK adj x p c = ((dr a p * xr p c : ℝ) : EReal) := by
  rw [xsK, dK_eq ha (hd p), hx, EReal.coe_mul]

/-- The eight blocks of 1024 columns partition the row, so the accumulated product is the full row-by-column
    product, a real. -/
theorem acc_real (ha : ∀ p j, adj p j = (a p j : EReal)) (hx : ∀ j c, x j c = (xr j c : EReal))
    (hd : ∀ p, 0 < degr a p) (p : Fin 8192) (c : Fin 512) :
    accK adj x p c = ((∑ j, a p j * (dr a j * xr j c) : ℝ) : EReal) := by
  have h : ∑ k ∈ Finset.range (7 + 1), mmBlk adj x p c k = ∑ j, adj p j * xsK adj x j c :=
    sum_blocks 1024 8 (by norm_num) (fun j => adj p j * xsK adj x j c)
  rw [accK, part_eq_sum, h, coe_sum]
  simp only [ha, xs_real ha hx hd, EReal.coe_mul]

/-- The kernel's normalized aggregate, in the reals. -/
theorem mmK_real (ha : ∀ p j, adj p j = (a p j : EReal)) (hx : ∀ j c, x j c = (xr j c : EReal))
    (hd : ∀ p, 0 < degr a p) (p : Fin 8192) (c : Fin 512) :
    mmK adj x p c = ((((∑ j, a p j * (dr a j * xr j c)) + dr a p * xr p c) * dr a p : ℝ) : EReal) := by
  rw [mmK, acc_real ha hx hd, xs_real ha hx hd, dK_eq ha (hd p), ← EReal.coe_add, ← EReal.coe_mul]

/-- The reference's normalized aggregate, in the reals. -/
theorem mmR_real (ha : ∀ p j, adj p j = (a p j : EReal)) (hx : ∀ j c, x j c = (xr j c : EReal))
    (hd : ∀ p, 0 < degr a p) (p : Fin 8192) (c : Fin 512) :
    mmR adj x p c
      = ((∑ j, ((a p j + if p = j then 1 else 0) * dr a p) * dr a j * xr j c : ℝ) : EReal) := by
  rw [mmR, coe_sum]
  refine Finset.sum_congr rfl fun j _ => ?_
  rw [Ahat, A, ha, hx, dR_eq ha (hd p), dR_eq ha (hd j), coe_indicator, ← EReal.coe_add,
    ← EReal.coe_mul, ← EReal.coe_mul, ← EReal.coe_mul]

/-- The two normalized aggregates agree. In the reals, with `d = dr a`:
    `∑ j, (a p j + [p = j]) * d p * d j * x j c = (∑ j, a p j * (d j * x j c)) * d p + d p * d p * x p c`,
    the identity's term being the single summand `j = p`. -/
theorem mm_eq (ha : ∀ p j, adj p j = (a p j : EReal)) (hx : ∀ j c, x j c = (xr j c : EReal))
    (hd : ∀ p, 0 < degr a p) (p : Fin 8192) (c : Fin 512) :
    mmK adj x p c = mmR adj x p c := by
  rw [mmK_real ha hx hd, mmR_real ha hx hd]
  congr 1
  have h : ∀ j, ((a p j + if p = j then 1 else 0) * dr a p) * dr a j * xr j c
      = (a p j * (dr a j * xr j c)) * dr a p + (if p = j then dr a p * dr a j * xr j c else 0) := by
    intro j; split_ifs <;> ring
  simp only [h, Finset.sum_add_distrib, Finset.sum_ite_eq, Finset.mem_univ, if_true, ← Finset.sum_mul]
  ring

/-- The logits agree, term by term. -/
theorem logit_eq (ha : ∀ p j, adj p j = (a p j : EReal)) (hx : ∀ j c, x j c = (xr j c : EReal))
    (hd : ∀ p, 0 < degr a p) (p : Fin 8192) (o : Fin 512) :
    logitK adj x w p o = logitR adj x w p o := by
  rw [logitK, logitR]
  simp only [mm_eq ha hx hd]

end

/-! ## The claim -/

/-- With every entry a real and every reference degree positive, the kernel's function is the reference's. The
    logits agree; where the logit is positive both results are the logit, and elsewhere the reference's
    `1 * (exp (if 0 < l then 0 else l) - 1)` is `exp l - 1`. The entries of `w` enter both sides through the same
    products, so nothing is asked of them. -/
theorem out_eq (adj : Fin 8192 → Fin 8192 → EReal) (x : Fin 8192 → Fin 512 → EReal) (w : Fin 512 → Fin 512 → EReal)
    (hadj : ∀ p j, ∃ r : ℝ, adj p j = (r : EReal)) (hx : ∀ j c, ∃ r : ℝ, x j c = (r : EReal)) (hw : ∀ c o, ∃ r : ℝ, w c o = (r : EReal))
    (hdeg : ∀ p, 0 < degR adj p) :
    outK adj x w = outR adj x w := by
  choose a ha using hadj
  choose xr hxr using hx
  have hd : ∀ p, 0 < degr a p := fun p => by
    have h := hdeg p
    rw [degR_eq ha] at h
    exact EReal.coe_pos.mp h
  funext p o
  rw [outK, outR, logit_eq w ha hxr hd]
  by_cases h : 0 < logitR adj x w p o
  · simp only [if_pos h]
  · simp only [if_neg h, one_mul]

end Cert.Spec

end
-- ==== Proof.PreReal.lean ====
/-
  What the precondition says, conjunct by conjunct. It is the conjunction of four statements, each a conjunction over
  every index of an array: every entry of the first argument, of the second and of the third has absolute value below
  +∞ — so is neither infinity, that is, is a real — and every row sum of the second argument plus the identity matrix
  is above zero.
-/
import proofs.«114790_j36223754174749_2_alg».proof.Pre_finite_inputs
import proofs.«114790_j36223754174749_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Hand

open Idealize.ShloMosaic Idealize.ShloMosaic.ValueIdx Cert.Pre_finite_inputs

/-- The shape of rank zero has one index. -/
instance subsingleton_scalar_idx : Subsingleton S_.Idx := ⟨fun a b => funext fun d => d.elim0⟩

/-- A conjunction of two arrays of bits that is 1 at an index has both 1 there. -/
theorem andi_apply_eq_one {s : Shape} (a b : IVec s 1) (i : s.Idx) (h : andi a b i = 1#1) :
    a i = 1#1 ∧ b i = 1#1 :=
  IntOp.andi_eq_one.1 (show IntOp.andi (a i) (b i) = 1#1 from h)

/-- The word `0x7F800000` denotes +∞. -/
theorem ofBits_inf : Ideal.ofBits .f32 0x7F800000#32 = ⊤ := by simp [Ideal.ofBits, Ideal.ieee]

/-- An extended real `a` with `max a (-a) < ⊤` is neither infinity: it is a real. -/
theorem real_of_abs_lt_top (a : EReal) (h : max a (-a) < ⊤) : ∃ r : ℝ, a = (r : EReal) := by
  induction a using EReal.rec with
  | bot => simp at h
  | coe r => exact ⟨r, rfl⟩
  | top => simp at h

/-- An entry whose absolute value compares below the broadcast +∞ is a real. -/
theorem real_of_finite {s : Shape} (hb : S_.BroadcastsInDim s ![]) (x : FVec Ideal s .f32) (i : s.Idx)
    (h : cmpf .olt (Host.absf x) (broadcastInDim s ![] hb (constant S_ .f32 0x7F800000#32)) i = 1#1) :
    ∃ r : ℝ, x i = (r : EReal) := by
  have h1 : Ideal.cmp .olt (max (x i : EReal) (-(x i : EReal))) (Ideal.ofBits .f32 0x7F800000#32) = 1#1 := h
  rw [ofBits_inf] at h1
  refine real_of_abs_lt_top (x i) ?_
  by_contra hn
  simp [Ideal.cmp, hn] at h1

section

variable [Facts] (x : FVec Ideal S8192x512 .f32) (adj : FVec Ideal S8192x8192 .f32) (w : FVec Ideal S512x512 .f32)

/-- The precondition split into its four conjuncts, each read at every index of its array. -/
theorem pre_conj (h : fn (F := Ideal) x adj w = fun _ => 1#1) :
    (∀ i, cmpf .olt (Host.absf x) (broadcastInDim S8192x512 ![] Facts.bcast_S_S8192x512 (constant S_ .f32 0x7F800000#32)) i = 1#1)
    ∧ (∀ i, cmpf .olt (Host.absf adj) (broadcastInDim S8192x8192 ![] Facts.bcast_S_S8192x8192 (constant S_ .f32 0x7F800000#32)) i = 1#1)
    ∧ (∀ i, cmpf .olt (Host.absf w) (broadcastInDim S512x512 ![] Facts.bcast_S_S512x512 (constant S_ .f32 0x7F800000#32)) i = 1#1)
    ∧ (∀ p : S8192.Idx,
        cmpf .ogt
          (Host.reduceAdd
            (addf adj (uitofp .f32 (cmpi .eq
              (addi (iotaInDim S8192x8192 32 0) (broadcastInDim S8192x8192 ![] Facts.bcast_S_S8192x8192 (constantI S_ 32 0#32)))
              (iotaInDim S8192x8192 32 1))))
            (constant S_ .f32 0x00000000#32) Facts.reducesTo_S8192x8192_S8192_d1 Facts.h_S_)
          (broadcastInDim S8192 ![] Facts.bcast_S_S8192 (constant (F := Ideal) S_ .f32 0x00000000#32)) p = 1#1) := by
  have h0 := congrFun h ix0
  dsimp only [fn, fn_part1] at h0
  obtain ⟨h13, h24⟩ := andi_apply_eq_one _ _ _ h0
  obtain ⟨h8, h12⟩ := andi_apply_eq_one _ _ _ h13
  obtain ⟨h3, h7⟩ := andi_apply_eq_one _ _ _ h8
  exact ⟨fun i => Host.reduce_andi_all _ _ _ _ _ h3 i, fun i => Host.reduce_andi_all _ _ _ _ _ h7 i,
    fun i => Host.reduce_andi_all _ _ _ _ _ h12 i, fun p => Host.reduce_andi_all _ _ _ _ _ h24 p⟩

/-- Every entry of the first argument is a real. -/
theorem pre_real_x (h : fn (F := Ideal) x adj w = fun _ => 1#1) : ∀ i, ∃ r : ℝ, x i = (r : EReal) :=
  fun i => real_of_finite _ x i ((pre_conj x adj w h).1 i)

/-- Every entry of the second argument is a real. -/
theorem pre_real_adj (h : fn (F := Ideal) x adj w = fun _ => 1#1) : ∀ i, ∃ r : ℝ, adj i = (r : EReal) :=
  fun i => real_of_finite _ adj i ((pre_conj x adj w h).2.1 i)

/-- Every entry of the third argument is a real. -/
theorem pre_real_w (h : fn (F := Ideal) x adj w = fun _ => 1#1) : ∀ i, ∃ r : ℝ, w i = (r : EReal) :=
  fun i => real_of_finite _ w i ((pre_conj x adj w h).2.2.1 i)

/-- The fourth conjunct: in every row, the sum from zero of the second argument plus the identity matrix compares
    above the broadcast zero. -/
theorem pre_deg_conj (h : fn (F := Ideal) x adj w = fun _ => 1#1) : ∀ p : S8192.Idx,
    cmpf .ogt
      (Host.reduceAdd
        (addf adj (uitofp .f32 (cmpi .eq
          (addi (iotaInDim S8192x8192 32 0) (broadcastInDim S8192x8192 ![] Facts.bcast_S_S8192x8192 (constantI S_ 32 0#32)))
          (iotaInDim S8192x8192 32 1))))
        (constant S_ .f32 0x00000000#32) Facts.reducesTo_S8192x8192_S8192_d1 Facts.h_S_)
      (broadcastInDim S8192 ![] Facts.bcast_S_S8192 (constant (F := Ideal) S_ .f32 0x00000000#32)) p = 1#1 :=
  (pre_conj x adj w h).2.2.2

end

end Cert.KernelIdeal.Hand

end
-- ==== Proof.Eye.lean ====
/-
  The identity matrix as the programs build it, and a row's degree, read at an index over the extended reals.

  The `n × n` identity matrix is built as a comparison of two counters: the row counter (plus a zero offset) against the
  column counter, both as 32-bit words, the resulting bit converted to a float. Below `2 ^ 32` two counters are equal as words exactly
  when they are equal, so the entry at `(p, j)` is `1` if `p = j` and `0` otherwise. The degree of row `p` of
  `adj + I`, summed on the host from an initial value `0`, is `0 + ∑ j, (adj p j + [p = j])`.
-/
import Idealize.ShloMosaic.Lib.ValueIdx
import Idealize.ShloMosaic.PureOps.Ideal.Laws

noncomputable section

open scoped BigOperators

namespace Cert.Hand

open Idealize.ShloMosaic ValueIdx

/-- Two naturals below `2 ^ 32` are equal as 32-bit words exactly when they are equal. -/
theorem ofNat32_eq_iff {a b : ℕ} (ha : a < 2 ^ 32) (hb : b < 2 ^ 32) : BitVec.ofNat 32 a = BitVec.ofNat 32 b ↔ a = b := by
  constructor
  · intro h
    have e := congrArg BitVec.toNat h
    rw [BitVec.toNat_ofNat, BitVec.toNat_ofNat, Nat.mod_eq_of_lt ha, Nat.mod_eq_of_lt hb] at e
    exact e
  · rintro rfl; rfl

/-- The identity matrix at `(p, j)`: `1` on the diagonal, `0` off it. `Z` is the zero offset added to the row counter. -/
theorem eye_apply {n : ℕ} (hn : n ≤ 2 ^ 32) (Z : IVec ⟨2, ![n, n]⟩ 32) (hZ : ∀ i, Z i = 0#32) (p j : Fin n) :
    uitofp (F := Ideal) .f32 (cmpi .eq (addi (iotaInDim ⟨2, ![n, n]⟩ 32 0) Z) (iotaInDim ⟨2, ![n, n]⟩ 32 1)) (ix2 p j)
      = if p = j then (1 : EReal) else 0 := by
  show (((IntOp.cmpi .eq (IntOp.addi (BitVec.ofNat 32 p.val) (Z (ix2 p j))) (BitVec.ofNat 32 j.val)).toNat : ℝ) : EReal) = _
  rw [hZ]
  have hp : p.val < 2 ^ 32 := lt_of_lt_of_le p.isLt hn
  have hj : j.val < 2 ^ 32 := lt_of_lt_of_le j.isLt hn
  by_cases h : p = j
  · subst h
    simp [IntOp.cmpi, IntOp.addi]
  · have hne : ¬ BitVec.ofNat 32 p.val = BitVec.ofNat 32 j.val := fun e => h (Fin.ext ((ofNat32_eq_iff hp hj).1 e))
    simp [IntOp.cmpi, IntOp.addi, hne, h]

/-- The degree of row `p` of `adj + I`, summed from the initial value `0`. `h` is the same shape fact as `h'`, in the
    form that names the summed coordinate. -/
theorem deg_apply {n : ℕ} (hn : n ≤ 2 ^ 32) (adj : FVec Ideal ⟨2, ![n, n]⟩ .f32) (Z : IVec ⟨2, ![n, n]⟩ 32) (hZ : ∀ i, Z i = 0#32)
    {u : Shape} (init : FVec Ideal u .f32) (hu : 0 < u.numel) (hinit : ∀ k, init k = 0)
    (h' : (⟨2, ![n, n]⟩ : Shape).ReducesTo [1] ⟨1, ![n]⟩) (h : (⟨2, ![n, n]⟩ : Shape).Reduces [1] ⟨1, ![n]⟩) (p : Fin n) :
    Host.reduceAdd (F := Ideal)
        (addf adj (uitofp .f32 (cmpi .eq (addi (iotaInDim ⟨2, ![n, n]⟩ 32 0) Z) (iotaInDim ⟨2, ![n, n]⟩ 32 1)))) init h' hu (ix1 p)
      = 0 + ∑ j : Fin n, (adj (ix2 p j) + if p = j then (1 : EReal) else 0) := by
  show Ideal.hostReduceAdd h' _ (init _) (ix1 p) = _
  rw [Ideal.hostReduceAdd_single h' h, hinit]
  refine congrArg (0 + ·) (Finset.sum_congr rfl fun j _ => ?_)
  have hidx : h.lift (ix1 p) j = ix2 p j := by
    funext ax
    match ax with
    | ⟨0, _⟩ => rfl
    | ⟨1, _⟩ => rfl
  rw [hidx]
  exact congrArg (adj (ix2 p j) + ·) (eye_apply hn Z hZ p j)

end Cert.Hand

end
-- ==== Proof.Pre.lean ====
/-
  What the precondition gives about the degrees.

  The precondition is the conjunction of four universal statements: the absolute value of every entry of `x`, of `adj`
  and of `w` is below `+∞`, and every row sum of `adj + I` is above `0`. Over the extended reals an entry whose absolute value is
  below `+∞` is a real, and the row sum read index by index is the degree `0 + ∑ j, (adj p j + [p = j])`.
-/
import proofs.«114790_j36223754174749_2_alg».proof.Defs
import proofs.«114790_j36223754174749_2_alg».proof.Proof.Gen.Pre_finite_inputs
import proofs.«114790_j36223754174749_2_alg».proof.Proof.Spec
import proofs.«114790_j36223754174749_2_alg».proof.Proof.Eye
import Idealize.ShloMosaic.Lib.ReduceAll
import Idealize.ShloMosaic.Lib.ValueIdx
import Idealize.ShloMosaic.PureOps.Ideal.Laws

noncomputable section

open scoped BigOperators

namespace Cert.KernelIdeal.Hand

open Idealize.ShloMosaic ValueIdx

namespace PreDeg

/-! ## Single elements -/

/-- The f32 pattern `0x7F800000` denotes `+∞`. -/
theorem ofBits_inf_f32 : Ideal.ofBits .f32 0x7F800000#32 = ⊤ := by
  simp [Ideal.ofBits, Ideal.ieee]

/-- An extended real whose absolute value compares below `+∞` is a real. -/
theorem real_of_abs_lt_inf (a : EReal) (h : Ideal.cmp .olt (max a (-a)) (Ideal.ofBits .f32 0x7F800000#32) = 1#1) :
    ∃ r : ℝ, a = (r : EReal) := by
  rw [ofBits_inf_f32] at h
  induction a using EReal.rec with
  | bot => simp [Ideal.cmp] at h
  | top => simp [Ideal.cmp] at h
  | coe r => exact ⟨r, rfl⟩

/-- An extended real that compares above the f32 zero is positive. -/
theorem pos_of_cmp_ogt_zero (a : EReal) (h : Ideal.cmp .ogt a (Ideal.ofBits .f32 0x00000000#32) = 1#1) : 0 < a := by
  rw [Ideal.ofBits_zero_f32] at h
  by_contra hn
  simp [Ideal.cmp, hn] at h

/-! ## One universal statement, as a reduction by `and` that came out `1` -/

/-- The scalar shape has one index. -/
theorem subsingleton_scalar_idx : Subsingleton Cert.Pre_finite_inputs.S_.Idx := ⟨fun a b => funext fun d => d.elim0⟩

/-- If the conjunction over all entries of `|v| < B` is `1`, with `B` the splat of `+∞`, every entry of `v` is a real. -/
theorem real_of_all_abs_lt_inf {s : Shape} {axes : List (Fin s.rank)} (v B : FVec Ideal s .f32)
    (hB : ∀ i, B i = Ideal.ofBits .f32 0x7F800000#32) (init : IVec Cert.Pre_finite_inputs.S_ 1)
    (h' : s.ReducesTo axes Cert.Pre_finite_inputs.S_) (hu : 0 < Cert.Pre_finite_inputs.S_.numel)
    (e : Host.reduce IntOp.andi (cmpf .olt (Host.absf v) B) init h' hu ix0 = 1#1) : ∀ i, ∃ r : ℝ, v i = (r : EReal) := by
  intro i
  haveI := subsingleton_scalar_idx
  have hi : cmpf .olt (Host.absf v) B i = 1#1 := Host.reduce_andi_all _ init h' hu ix0 e i
  refine real_of_abs_lt_inf (v i) ?_
  rw [← hB i]
  exact hi

/-! ## The four conjuncts -/

/-- The precondition, split: the three arrays are real entry by entry, and every degree is positive. -/
theorem fn_split [Cert.Pre_finite_inputs.Facts] (x : FVec Ideal Cert.Pre_finite_inputs.S8192x512 .f32)
    (adj : FVec Ideal Cert.Pre_finite_inputs.S8192x8192 .f32) (w : FVec Ideal Cert.Pre_finite_inputs.S512x512 .f32)
    (h : Cert.Pre_finite_inputs.fn (F := Ideal) x adj w = fun _ => 1#1) :
    (∀ i, ∃ r : ℝ, x i = (r : EReal)) ∧ (∀ i, ∃ r : ℝ, adj i = (r : EReal)) ∧ (∀ i, ∃ r : ℝ, w i = (r : EReal))
      ∧ ∀ p : Fin 8192, 0 < 0 + ∑ j : Fin 8192, (adj (ix2 p j) + if p = j then (1 : EReal) else 0) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨real_of_all_abs_lt_inf x _ (fun _ => rfl) _ _ _ h1, real_of_all_abs_lt_inf adj _ (fun _ => rfl) _ _ _ h2,
    real_of_all_abs_lt_inf w _ (fun _ => rfl) _ _ _ h3, fun p => ?_⟩
  haveI := subsingleton_scalar_idx
  have hp := Host.reduce_andi_all _ _ _ _ ix0 h4 (ix1 p)
  have hd := pos_of_cmp_ogt_zero _ hp
  exact lt_of_lt_of_eq hd
    (Cert.Hand.deg_apply (n := 8192) (by norm_num) adj
      (broadcastInDim Cert.Pre_finite_inputs.S8192x8192 ![] Cert.Pre_finite_inputs.Facts.bcast_S_S8192x8192
        (constantI Cert.Pre_finite_inputs.S_ 32 0#32))
      (fun _ => rfl) (constant (F := Ideal) Cert.Pre_finite_inputs.S_ .f32 0x00000000#32) _
      (fun _ => Ideal.ofBits_zero_f32) _ (by decide) p)

end PreDeg

/-! ## The degrees are positive -/

/-- Every row of `adj + I` has a positive sum: the reference's degree, which it takes the inverse square root of. -/
theorem pre_deg_pos [Cert.Pre_finite_inputs.Facts] (x : FVec Ideal Cert.Pre_finite_inputs.S8192x512 .f32)
    (adj : FVec Ideal Cert.Pre_finite_inputs.S8192x8192 .f32) (w : FVec Ideal Cert.Pre_finite_inputs.S512x512 .f32)
    (h : Cert.Pre_finite_inputs.fn (F := Ideal) x adj w = fun _ => 1#1) :
    ∀ p : Fin 8192, 0 < Cert.Spec.degR (fun p j => adj (ix2 p j)) p := by
  intro p
  unfold Cert.Spec.degR Cert.Spec.A
  exact (PreDeg.fn_split x adj w h).2.2.2 p

end Cert.KernelIdeal.Hand

end
-- ==== Proof.Ref.Read.lean ====
import proofs.«114790_j36223754174749_2_alg».proof.Proof.Ref.Run
import proofs.«114790_j36223754174749_2_alg».proof.Proof.Spec
import Idealize.ShloMosaic.Lib.ValueIdx
import Idealize.ShloMosaic.Lib.IdealHost
import Idealize.ShloMosaic.Lib.StackMember
import Idealize.ShloMosaic.Lib.Pipeline.Value
import Idealize.ShloMosaic.PureOps.Ideal.Laws

/-!
  The reference's result read at an index, at the ideal values: 'refOut x adj w' at (p, o) is 'Spec.outR' of the three
  arrays read by coordinates. One lemma per stage that is not pointwise — the identity matrix, the row sums, the two
  broadcasts of the scale vector, the two matrix products, the selects of elu — each stated over variables, then the
  stages composed.
-/

noncomputable section

namespace Cert.ReferenceIdeal.Hand

open Cert.ReferenceIdeal Cert.ReferenceIdeal.Gen Idealize.ShloMosaic Idealize.ShloMosaic.ValueIdx
open scoped BigOperators

/-! ## Words -/

/-- Two numbers below 8192 are equal as 32-bit words exactly when they are equal. -/
theorem ofNat32_eq_iff {a b : ℕ} (ha : a < 8192) (hb : b < 8192) : BitVec.ofNat 32 a = BitVec.ofNat 32 b ↔ a = b := by
  constructor
  · intro h
    have e := congrArg BitVec.toNat h
    simp only [BitVec.toNat_ofNat] at e
    rw [Nat.mod_eq_of_lt (by omega), Nat.mod_eq_of_lt (by omega)] at e
    exact e
  · rintro rfl; rfl

/-! ## The identity matrix -/

/-- The row index plus the broadcast zero, compared with the column index and converted: one on the diagonal,
    zero off it. -/
theorem eye_apply (p j : Fin 8192) : eye (F := Ideal) (ix2 p j) = if p = j then 1 else 0 := by
  have hb : broadcastInDim S8192x8192 ![] bcast_S_S8192x8192 (constantI S_ 32 0#32 : IVec S_ 32) (ix2 p j) = 0#32 :=
    broadcastInDim_scalar_apply _ _ _
  show (((IntOp.cmpi .eq (IntOp.addi (BitVec.ofNat 32 p.val)
      (broadcastInDim S8192x8192 ![] bcast_S_S8192x8192 (constantI S_ 32 0#32 : IVec S_ 32) (ix2 p j))) (BitVec.ofNat 32 j.val)).toNat : ℝ) : EReal) = _
  rw [hb]
  show (((BitVec.ofBool (BitVec.ofNat 32 p.val + 0#32 == BitVec.ofNat 32 j.val)).toNat : ℝ) : EReal) = _
  rw [BitVec.add_zero]
  by_cases h : p = j
  · subst h; simp
  · have hne : BitVec.ofNat 32 p.val ≠ BitVec.ofNat 32 j.val := fun e =>
      h (Fin.ext ((ofNat32_eq_iff p.isLt j.isLt).mp e))
    simp [h, hne]

/-- 'adj + I' at (p, j). -/
theorem adjI_apply (adj : FVec Ideal S8192x8192 .f32) (p j : Fin 8192) :
    adjI adj (ix2 p j) = Cert.Spec.A (fun p j => adj (ix2 p j)) p j := by
  show adj (ix2 p j) + eye (F := Ideal) (ix2 p j) = _
  rw [eye_apply]; rfl

/-! ## The row sums and their inverse square roots -/

/-- The sum over axis 1 from the initial value: at row 'p', that value plus the sum over the columns. -/
theorem rowSum_apply (X : FVec Ideal S8192x8192 .f32) (init : FVec Ideal S_ .f32) (p : Fin 8192) :
    Host.reduceAdd X init reducesTo_S8192x8192_S8192_d1 h_S_ (ix1 p)
      = init (Shape.Idx.first h_S_) + ∑ j : Fin 8192, X (ix2 p j) := by
  have hR : S8192x8192.Reduces [1] S8192 := by decide
  rw [hostReduceAdd_apply, Ideal.hostReduceAdd_single reducesTo_S8192x8192_S8192_d1 hR]
  refine congrArg (init (Shape.Idx.first h_S_) + ·) ?_
  refine Finset.sum_congr rfl fun k _ => congrArg X ?_
  funext c; apply Fin.ext
  match c with
  | ⟨0, _⟩ => rfl
  | ⟨1, _⟩ => rfl

/-- The scale vector at 'p'. -/
theorem dinv_apply (adj : FVec Ideal S8192x8192 .f32) (p : Fin 8192) :
    dinv adj (ix1 p) = Cert.Spec.dR (fun p j => adj (ix2 p j)) p := by
  show Ideal.rsqrt (Host.reduceAdd (adjI adj) (constant (F := Ideal) S_ .f32 0x00000000#32) reducesTo_S8192x8192_S8192_d1 h_S_ (ix1 p)) = _
  rw [rowSum_apply, constant_apply, Ideal.ofBits_zero_f32]
  show _ = Ideal.rsqrt (0 + ∑ j : Fin 8192, Cert.Spec.A (fun p j => adj (ix2 p j)) p j)
  refine congrArg (fun s => Ideal.rsqrt (0 + s)) ?_
  exact Finset.sum_congr rfl fun j _ => adjI_apply adj p j

/-! ## The two broadcasts of a vector over a matrix -/

/-- A vector made a column, then copied along the rows: at (p, j) its entry 'p'. -/
theorem bcastRows_apply (d : FVec Ideal S8192 .f32) (p j : Fin 8192) :
    broadcastInDim S8192x8192 ![0, 1] bcast_S8192x1_S8192x8192_0_1
      (broadcastInDim S8192x1 ![0] bcast_S8192_S8192x1_0 d) (ix2 p j) = d (ix1 p) := by
  refine (broadcastInDim_apply _ _ _ (ix2 p j) (ix2 p (0 : Fin 1)) (fun a => match a with
    | ⟨0, _⟩ => rfl
    | ⟨1, _⟩ => rfl)).trans ?_
  exact broadcastInDim_apply _ _ _ (ix2 p (0 : Fin 1)) (ix1 p) (fun a => match a with
    | ⟨0, _⟩ => rfl)

/-- A vector made a row, then copied down the columns: at (p, j) its entry 'j'. -/
theorem bcastCols_apply (d : FVec Ideal S8192 .f32) (p j : Fin 8192) :
    broadcastInDim S8192x8192 ![0, 1] bcast_S1x8192_S8192x8192_0_1
      (broadcastInDim S1x8192 ![1] bcast_S8192_S1x8192_1 d) (ix2 p j) = d (ix1 j) := by
  refine (broadcastInDim_apply _ _ _ (ix2 p j) (ix2 (0 : Fin 1) j) (fun a => match a with
    | ⟨0, _⟩ => rfl
    | ⟨1, _⟩ => rfl)).trans ?_
  exact broadcastInDim_apply _ _ _ (ix2 (0 : Fin 1) j) (ix1 j) (fun a => match a with
    | ⟨0, _⟩ => rfl)

/-- The normalized adjacency at (p, j): the row's factor first, then the column's. -/
theorem ahat_apply (adj : FVec Ideal S8192x8192 .f32) (p j : Fin 8192) :
    ahat adj (ix2 p j) = Cert.Spec.Ahat (fun p j => adj (ix2 p j)) p j := by
  show (adjI adj (ix2 p j)
      * broadcastInDim S8192x8192 ![0, 1] bcast_S8192x1_S8192x8192_0_1
          (broadcastInDim S8192x1 ![0] bcast_S8192_S8192x1_0 (dinv adj)) (ix2 p j))
      * broadcastInDim S8192x8192 ![0, 1] bcast_S1x8192_S8192x8192_0_1
          (broadcastInDim S1x8192 ![1] bcast_S8192_S1x8192_1 (dinv adj)) (ix2 p j) = _
  rw [bcastRows_apply, bcastCols_apply, adjI_apply, dinv_apply, dinv_apply]
  rfl

/-! ## The two products -/

/-- The first product's dimension numbers are the plain matrix product's. -/
theorem dot1_eq : dot_S8192x8192_S8192x512_S8192x512_1_0_0_1_n_n = DotDims.plain 8192 8192 512 := rfl
/-- The second's too. -/
theorem dot2_eq : dot_S8192x512_S512x512_S8192x512_1_0_0_1_n_n = DotDims.plain 8192 512 512 := rfl

/-- The logits at (p, o). -/
theorem logits_apply (x : FVec Ideal S8192x512 .f32) (adj : FVec Ideal S8192x8192 .f32) (w : FVec Ideal S512x512 .f32)
    (p : Fin 8192) (o : Fin 512) :
    logits x adj w (ix2 p o)
      = Cert.Spec.logitR (fun p j => adj (ix2 p j)) (fun j c => x (ix2 j c)) (fun c o => w (ix2 c o)) p o := by
  show Host.dotGeneral dot_S8192x512_S512x512_S8192x512_1_0_0_1_n_n none
      (Host.dotGeneral dot_S8192x8192_S8192x512_S8192x512_1_0_0_1_n_n none (ahat adj) x) w (ix2 p o)
    = ∑ c : Fin 512, (∑ j : Fin 8192, Cert.Spec.Ahat (fun p j => adj (ix2 p j)) p j * x (ix2 j c)) * w (ix2 c o)
  rw [dot2_eq, dot1_eq, StackMember.dotGeneral_plain_apply]
  refine Finset.sum_congr rfl fun c _ => ?_
  rw [StackMember.dotGeneral_plain_apply]
  refine congrArg (· * w (ix2 c o)) ?_
  exact Finset.sum_congr rfl fun j _ => by rw [ahat_apply]

/-! ## elu -/

/-- The constant one. -/
theorem one_apply (i : S8192x512.Idx) :
    broadcastInDim S8192x512 ![] bcast_S_S8192x512 (constant (F := Ideal) S_ .f32 0x3F800000#32) i = 1 := by
  rw [broadcastInDim_scalar_apply, constant_apply, Ideal.ofBits_one_f32]

/-- The constant zero. -/
theorem zero_apply (i : S8192x512.Idx) :
    broadcastInDim S8192x512 ![] bcast_S_S8192x512 (constant (F := Ideal) S_ .f32 0x00000000#32) i = 0 := by
  rw [broadcastInDim_scalar_apply, constant_apply, Ideal.ofBits_zero_f32]

/-- A select on "above zero" is the conditional. -/
theorem select_ogt_zero {α : Type} (l : EReal) (a b : α) :
    Scalar.select (Ideal.cmp .ogt l 0) a b = if 0 < l then a else b := by
  show (if BitVec.ofBool (decide (0 < l)) = 1#1 then a else b) = _
  by_cases h : 0 < l <;> simp [h]

/-- elu at an index: the entry where it is above zero, elsewhere one times the exponential minus one of the entry
    (of zero where the branch is not taken). -/
theorem elu_apply (l : FVec Ideal S8192x512 .f32) (i : S8192x512.Idx) :
    elu l i = if 0 < l i then l i else 1 * (Ideal.exp (if 0 < l i then 0 else l i) - 1) := by
  show Scalar.select (Ideal.cmp .ogt (l i) (broadcastInDim S8192x512 ![] bcast_S_S8192x512 (constant (F := Ideal) S_ .f32 0x00000000#32) i))
      (l i)
      (broadcastInDim S8192x512 ![] bcast_S_S8192x512 (constant (F := Ideal) S_ .f32 0x3F800000#32) i
        * (Ideal.exp (Scalar.select (Ideal.cmp .ogt (l i) (broadcastInDim S8192x512 ![] bcast_S_S8192x512 (constant (F := Ideal) S_ .f32 0x00000000#32) i))
            (broadcastInDim S8192x512 ![] bcast_S_S8192x512 (constant (F := Ideal) S_ .f32 0x00000000#32) i)
            (l i)) - 1)) = _
  rw [zero_apply, one_apply, select_ogt_zero, select_ogt_zero]

/-! ## The result -/

/-- The reference's result at (p, o) is the mathematical reference's. -/
theorem refOut_apply (x : FVec Ideal S8192x512 .f32) (adj : FVec Ideal S8192x8192 .f32) (w : FVec Ideal S512x512 .f32)
    (p : Fin 8192) (o : Fin 512) :
    refOut (F := Ideal) x adj w (ix2 p o)
      = Cert.Spec.outR (fun p j => adj (ix2 p j)) (fun j c => x (ix2 j c)) (fun c o => w (ix2 c o)) p o := by
  show elu (logits x adj w) (ix2 p o) = _
  rw [elu_apply, logits_apply]
  rfl

end Cert.ReferenceIdeal.Hand

end
-- ==== Proof.Bridge.lean ====
/-
  The two idealized programs compute one function. The kernel's result array is its second stage (`Spec.outG`) of the
  arrays its second region is entered with; those are `adj` as launched, the first region's two result arrays — the
  row scales `Spec.dK` and the scaled features `Spec.xsK` of the launched `adj` and features — and the weights (their
  change of float format the identity on extended reals): so the result is `Spec.outK` of the three arguments. The
  reference's is `Spec.outR` of them. Under the precondition every entry is a real and every degree positive, and then
  `Spec.outK = Spec.outR` (the algebra is done over the reals, where the row scale distributes over the sum).
-/
import proofs.«114790_j36223754174749_2_alg».proof.Defs
import proofs.«114790_j36223754174749_2_alg».proof.Proof.KI.Run
import proofs.«114790_j36223754174749_2_alg».proof.Proof.KI.Value0
import proofs.«114790_j36223754174749_2_alg».proof.Proof.KI.Value1
import proofs.«114790_j36223754174749_2_alg».proof.Proof.Alg
import proofs.«114790_j36223754174749_2_alg».proof.Proof.PreReal
import proofs.«114790_j36223754174749_2_alg».proof.Proof.Pre
import proofs.«114790_j36223754174749_2_alg».proof.Proof.Ref.Run
import proofs.«114790_j36223754174749_2_alg».proof.Proof.Ref.Read

set_option maxRecDepth 16384

noncomputable section

namespace Cert.Proof.Bridge

open Idealize.ShloMosaic Idealize.ShloMosaic.TcCoe Idealize.SL.Sem ValueIdx
open Cert.KernelIdeal Cert.KernelIdeal.Gen Cert.KernelIdeal.Hand

variable (m : (ℓ : Loc nD τ sig) → Buf (Elt Ideal) ℓ) (ρ : Dev nD → PrngReg)

/-- The three argument arrays as launched, as functions of their coordinates. -/
abbrev adjM (c : Dev nD) : Fin 8192 → Fin 8192 → EReal := fun p j => m ((c : Thread nD τ).loc main_arg1) (ix2 p j)
abbrev xM (c : Dev nD) : Fin 8192 → Fin 512 → EReal := fun p q => m ((c : Thread nD τ).loc main_arg0) (ix2 p q)
abbrev wM (c : Dev nD) : Fin 512 → Fin 512 → EReal := fun a o => m ((c : Thread nD τ).loc main_arg2) (ix2 a o)

/-- What the second region finds: `adj` as launched, -/
theorem adj_in (c : Dev nD) : adjOf1 (V2 m ρ) c = adjM m c := by
  funext p j
  show V2 m ρ c main_arg1 _ = _
  rw [V2_main_arg1]
/-- the scaled features the first region wrote, -/
theorem xs_in (c : Dev nD) : xsOf (V2 m ρ) c = Spec.xsK (adjM m c) (xM m c) := by
  funext p q
  show V2 m ρ c main_v0_1 (ix2 p q) = _
  rw [V2_main_v0_1, final0_3]
/-- the row scales it wrote, -/
theorem dis_in (c : Dev nD) : disOf (V2 m ρ) c = Spec.dK (adjM m c) := by
  funext p
  show V2 m ρ c main_v0_0 (ix2 p (0 : Fin 1)) = _
  rw [V2_main_v0_0, final0_2]
/-- and the weights (a change of float format is the identity on extended reals). -/
theorem w_in (c : Dev nD) : wOf (V2 m ρ) c = wM m c := by
  funext a o
  show V2 m ρ c main_v1 (ix2 a o) = _
  rw [V2_main_v1]
  rfl

/-- THE KERNEL'S RESULT: `Spec.outK` of the three argument arrays, index by index. -/
theorem kernel_out (c : Dev nD) :
    (dat1 (V2 m ρ) c).arrAt 4 cfg1.N
      = fun i => Spec.outK (adjM m c) (xM m c) (wM m c) ⟨(i 0).val, (i 0).isLt⟩ ⟨(i 1).val, (i 1).isLt⟩ := by
  rw [final1_4]
  funext i
  show Spec.outG (adjOf1 (V2 m ρ) c) (wOf (V2 m ρ) c) (xsOf (V2 m ρ) c) (disOf (V2 m ρ) c) _ _ = _
  rw [adj_in, xs_in, dis_in, w_in, Spec.outK_eq_outG]

/-- The claim between the two idealized programs. -/
theorem algebraic : Cert.algebraic_KernelIdeal_ReferenceIdeal := by
  intro m ρ m' ρ' hpre hagree
  refine ⟨fun c => (dat1 (V2 m ρ) c).arrAt 4 cfg1.N, run_named m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  show _ = (dat1 (V2 m ρ) c).arrAt 4 cfg1.N
  rw [kernel_out]
  have hp := hpre c
  funext i
  obtain ⟨p, o, rfl⟩ : ∃ (p : Fin 8192) (o : Fin 512), i = ix2 p o := ⟨i 0, i 1, eq_ix2 i⟩
  rw [Cert.ReferenceIdeal.Hand.refOut_apply]
  have hx := pre_real_x _ _ _ hp
  have hadj := pre_real_adj _ _ _ hp
  have hw := pre_real_w _ _ _ hp
  have hdeg := pre_deg_pos _ _ _ hp
  exact (congrFun (congrFun (Spec.out_eq (adjM m c) (xM m c) (wM m c) (fun p j => hadj (ix2 p j)) (fun j q => hx (ix2 j q))
    (fun a o => hw (ix2 a o)) hdeg) p) o).symm

end Cert.Proof.Bridge

end
-- ==== Proof.lean ====
/-
  A graph-convolution layer, `out = elu ((D̂ (adj + I) D̂ · x) · w)` with `D̂ = diag (rsqrt (rowsum (adj + I)))`, computed by two
  kernels — the first accumulates each row's degree over four column blocks and writes the row scales `d` and the scaled
  features `d · x`; the second accumulates `adj · (d · x)` over eight column blocks, adds the identity's term, applies
  the row scale, contracts with the weights and applies the exponential-linear selection — against the plain formula.

  The three programs run to the end and leave their arguments as launched (the frames); between the kernel and its
  idealization nothing was rewritten; and at the extended reals, where every input entry is a real and every degree
  `rowsum (adj + I)` is positive (the reference's `rsqrt` is then inside its domain), the two idealized programs end
  with equal results, entry by entry: both are one function of the three arrays (`Spec.outK = Spec.outR`).
-/
import proofs.«114790_j36223754174749_2_alg».proof.Defs
import proofs.«114790_j36223754174749_2_alg».proof.Proof.Gen.Kernel
import proofs.«114790_j36223754174749_2_alg».proof.Proof.Gen.KernelIdeal
import proofs.«114790_j36223754174749_2_alg».proof.Proof.Gen.ReferenceIdeal
import proofs.«114790_j36223754174749_2_alg».proof.Proof.Gen.Pre_finite_inputs
import proofs.«114790_j36223754174749_2_alg».proof.Proof.K.Run
import proofs.«114790_j36223754174749_2_alg».proof.Proof.KI.Run
import proofs.«114790_j36223754174749_2_alg».proof.Proof.Ref.Run
import proofs.«114790_j36223754174749_2_alg».proof.Proof.Bridge
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- So does the reference: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Bridge.algebraic⟩

end Cert.Proof

end
